-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x40 : S_.BroadcastsInDim S32x40 (![] : Fin 0 → Fin S32x40.rank)
  reducesTo_S32x40_S_d0_1 : S32x40.ReducesTo [0, 1] S_

variable [Facts]

def fn_part2 {F : FTy → Type} [FloatOps F] (main_arg8 : FVec F S32x40 .f32) (main_v33 : IVec S_ 1) : IVec S_ 1 :=
  let main_v34 : FVec F S32x40 .f32 := Host.absf main_arg8
  let main_cst_12 : FVec F S_ .f32 := constant S_ .f32 0x7F800000#32
  let main_v35 : FVec F S32x40 .f32 := broadcastInDim S32x40 ![] bcast_S_S32x40 main_cst_12
  let main_v36 : IVec S32x40 1 := cmpf .olt main_v34 main_v35
  let main_c_13 : IVec S_ 1 := constantI S_ 1 1#1
  let main_v37 : IVec S_ 1 := (fun x v => Host.reduce IntOp.andi x v reducesTo_S32x40_S_d0_1 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x32 .f32) (main_arg8 : FVec F S32x40 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S64x32 .f32) (main_arg3 : FVec F S32 .f32) (main_arg4 : FVec F S64x32 .f32) (main_arg5 : FVec F S32x32 .f32) (main_arg6 : FVec F S32 .f32) (main_arg7 : FVec F S32x32 .f32) (main_arg8 : FVec F S32x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S1x32 : Shape := ⟨2, ![1, 32]⟩
abbrev S5000x1 : Shape := ⟨2, ![5000, 1]⟩
abbrev S100000x40 : Shape := ⟨2, ![100000, 40]⟩
abbrev S5000x40 : Shape := ⟨2, ![5000, 40]⟩

abbrev nBuf : Space → Nat
  | .hbm => 59
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x32, .f32⟩
  | .hbm, ⟨27, _⟩ => ⟨S100000x32, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .bf16⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S1x32, .f32⟩
  | .hbm, ⟨58, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S64x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S32x32, .f32⟩
  | .local _ .vmem, ⟨22, _⟩ => ⟨S1x32, .f32⟩
  | .local _ .vmem, ⟨23, _⟩ => ⟨S32x32, .f32⟩
  | .local _ .vmem, ⟨24, _⟩ => ⟨S32x40, .f32⟩
  | .local _ .vmem, ⟨25, _⟩ => ⟨S5000x40, .f32⟩
  | .local _ .vmem, ⟨26, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x40 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S32x40_S32x40_0_0 : ∀ a, (![0, 0] : Fin 2 → Nat) a + S32x40.size a ≤ S32x40.size a
  h_S32x40 : 0 < S32x40.numel
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x40.size a ≤ S32x40.size a
  hwx2_6 : ∀ i : grid2.Coords, EltTy.bits .f32 = 32 ∨ (Rect.block (s := S32x40) S32x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x40.size a ≤ S100000x40.size a
  hwx2_7 : ∀ i : grid2.Coords, EltTy.bits .f32 = 32 ∨ (Rect.block (s := S100000x40) S5000x40.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S32x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S5000x40.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x40 : Shape := ⟨2, ![32, 40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x40 : Shape := ⟨2, ![100000, 40]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32x40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S100000x1, .f32⟩
  | .hbm, ⟨64, _⟩ => ⟨S100000x32, .f32⟩
  | .hbm, ⟨65, _⟩ => ⟨S100000x32, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S100000x32, .f32⟩
  | .hbm, ⟨71, _⟩ => ⟨S100000x32, .f32⟩
  | .hbm, ⟨72, _⟩ => ⟨S_, .f32⟩
  | .hbm, ⟨73, _⟩ => ⟨S100000x32, .f32⟩
  | .hbm, ⟨74, _⟩ => ⟨S100000x32, .f32⟩
  | .hbm, ⟨75, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x40_S100000x40_1_0_0_1_n_n_wf : DotDims.WF S100000x32 S32x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf

class Facts : Prop extends Facts₀ where

variable [Facts]
-- ==== Proof.RunValue.lean ====
/-
  The idealized kernel's run with its result named. The program is three kernel launches among stretches of host operations;
  its run leaves every unscoped buffer at the contents obtained by folding the stretches and the launches from the launch memory
  (the fold `Gen.W6`). Read at the result buffer this gives the result array, and at the argument buffers the arguments as
  launched.
-/
import proofs.«156842_j45423574122804_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the fold's contents and
    the argument arrays end as launched. -/
theorem run_result : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.Spec.lean ====
/-
  The three dense per-node passes of a two-layer GraphSAGE network followed by a linear read-out, written index by index over the
  extended reals: a plain matrix product; a first layer that scales each node's already-transformed aggregate by the node's
  inverse degree, adds the node's own transformed features and the bias, and rectifies; a second layer that scales, transforms,
  adds the node's own transformed features and the bias, rectifies, and applies the read-out matrix.
  Arrays are functions on rank-2 indices; `ix2 r c` is the index of row `r`, column `c`.
-/
import Idealize.ShloMosaic.PureOps.Ideal
import Idealize.ShloMosaic.Lib.ValueIdx

noncomputable section

namespace Cert.Sage

open Idealize.ShloMosaic Idealize.ShloMosaic.ValueIdx

/-- An `a` by `b` array of extended reals. -/
abbrev Arr (a b : Nat) : Type := (⟨2, ![a, b]⟩ : Shape).Idx → EReal

/-- The matrix product: entry `(r, q)` is the sum over `k` of `A (r, k) * W (k, q)`. -/
def mm {n k m : Nat} (A : Arr n k) (W : Arr k m) : Arr n m :=
  fun i => ∑ q : Fin k, A (ix2 (i 0) q) * W (ix2 q (i 1))

/-- First layer at a node: `max (agg (r, q) * inv r + (x W) (r, q) + b q) 0`. The aggregate arrives already multiplied by the
    neighbour-side weight matrix. -/
def layer1 {n : Nat} (agg : Arr n 32) (x : Arr n 64) (inv : Arr n 1) (b : Arr 1 32) (Wr : Arr 64 32) : Arr n 32 :=
  fun i => max ((agg i * inv (ix2 (i 0) 0) + mm x Wr i) + b (ix2 0 (i 1))) 0

/-- The hidden features of the second layer: `max (((agg * inv) Wl) (r, q) + (h Wr) (r, q) + b q) 0`. -/
def hidden2 {n : Nat} (agg h : Arr n 32) (inv : Arr n 1) (Wl : Arr 32 32) (b : Arr 1 32) (Wr : Arr 32 32) : Arr n 32 :=
  fun i => max ((mm (fun p => agg p * inv (ix2 (p 0) 0)) Wl i + mm h Wr i) + b (ix2 0 (i 1))) 0

/-- Second layer and read-out: the hidden features times the read-out matrix. -/
def layer2 {n : Nat} (agg h : Arr n 32) (inv : Arr n 1) (Wl : Arr 32 32) (b : Arr 1 32) (Wr : Arr 32 32) (w : Arr 32 40) :
    Arr n 40 :=
  mm (hidden2 agg h inv Wl b Wr) w

end Cert.Sage

end
-- ==== Proof.KernelTerm.lean ====
/-
  The idealized kernel's result written as one term over the argument arrays: the edge list split into source and destination
  rows, every node's clamped reciprocal in-degree, neighbour aggregation (rows gathered at the sources, added up at the
  destinations), and the three dense passes of Spec.lean composed in the kernel's order — the neighbour-side weight matrix
  applied BEFORE the first aggregation.
-/
import proofs.«156842_j45423574122804_2_alg».proof.KernelIdeal
import proofs.«156842_j45423574122804_2_alg».proof.Proof.Gen.KernelIdeal
import proofs.«156842_j45423574122804_2_alg».proof.Proof.Gen.ReferenceIdeal.Read
import proofs.«156842_j45423574122804_2_alg».proof.Proof.Spec
import Idealize.ShloMosaic.PureOps.Ideal

noncomputable section

namespace Cert.KernelIdeal.KVal

open Cert.KernelIdeal Cert.KernelIdeal.Gen
open Idealize.ShloMosaic Idealize.ShloMosaic.TcCoe
open Cert.ReferenceIdeal.Read (val_main_v1 val_main_v3 val_main_v11)

/-! ## The shared pieces, as functions of the edge list -/

/-- The gather's row numbers: the source row of every edge, a negative one wrapped round by the number of nodes. -/
def srcIdx (x1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi CmpIPredicate.slt (val_main_v1 (F := Ideal) x1) (broadcastInDim S1600000 ![] bcast_S_S1600000 (constantI S_ 32 0#32)))
      (addi (val_main_v1 (F := Ideal) x1) (broadcastInDim S1600000 ![] bcast_S_S1600000 (constantI S_ 32 100000#32)))
      (val_main_v1 (F := Ideal) x1))

/-- The scatter's row numbers: the destination row of every edge. -/
def dstIdx (x1 : (⟨S2x1600000, .i32⟩ : BufTy).Contents (Elt Ideal)) : (⟨S1600000x1, .i32⟩ : BufTy).Contents (Elt Ideal) :=
  broadcastInDim S1600000x1 ![0] bcast_S1600000_S1600000x1_0 (val_main_v3 (F := Ideal) x1)

/-- Neighbour aggregation of a 32-column table: its rows gathered at the edges' sources, added up at their destinations. -/
def agg (x1 : (⟨S2x1600000, .i32⟩ : BufTy).Contents (Elt Ideal)) (T : (⟨S100000x32, .f32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ FTy.f32 0#32))
    (dstIdx x1)
    (Host.gather gather_S100000x32_S1600000x1_S1600000x32_1_0_n_n_0_1_132 T (srcIdx x1))

/-- The same aggregation with the table passed through the narrower float format and back (the identity on extended reals). -/
def aggNarrow (x1 : (⟨S2x1600000, .i32⟩ : BufTy).Contents (Elt Ideal)) (T : (⟨S100000x32, .f32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ FTy.f32 0#32))
    (dstIdx x1)
    (extf (F := Ideal) FTy.f32 (Host.gather gather_S100000x32_S1600000x1_S1600000x32_1_0_n_n_0_1_132 (truncf (F := Ideal) FTy.bf16 T bitsLt_bf16_f32) (srcIdx x1))
      bitsLt_bf16_f32)

/-- Every node's clamped reciprocal in-degree, laid out as a column. -/
def invCol (x1 : (⟨S2x1600000, .i32⟩ : BufTy).Contents (Elt Ideal)) : (⟨S100000x1, .f32⟩ : BufTy).Contents (Elt Ideal) :=
  shapeCast S100000x1 (val_main_v11 (F := Ideal) x1) shapeCasts_S100000_S100000x1

/-- A bias vector laid out as a row. -/
def biasRow (b : (⟨S32, .f32⟩ : BufTy).Contents (Elt Ideal)) : (⟨S1x32, .f32⟩ : BufTy).Contents (Elt Ideal) :=
  shapeCast S1x32 b shapeCasts_S32_S1x32

/-- The first layer's output as the kernel computes it. -/
def h1 (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S64x32, .f32⟩ : BufTy).Contents (Elt Ideal)) : (⟨S100000x32, .f32⟩ : BufTy).Contents (Elt Ideal) :=
  Cert.Sage.layer1 (aggNarrow x1 (Cert.Sage.mm x0 x2)) x0 (invCol x1) (biasRow x3) x4

/-- The result as the kernel computes it. -/
def out (x0 : (⟨S100000x64, .f32⟩ : BufTy).Contents (Elt Ideal)) (x1 : (⟨S2x1600000, .i32⟩ : BufTy).Contents (Elt Ideal))
    (x2 : (⟨S64x32, .f32⟩ : BufTy).Contents (Elt Ideal)) (x3 : (⟨S32, .f32⟩ : BufTy).Contents (Elt Ideal))
    (x4 : (⟨S64x32, .f32⟩ : BufTy).Contents (Elt Ideal)) (x5 : (⟨S32x32, .f32⟩ : BufTy).Contents (Elt Ideal))
    (x6 : (⟨S32, .f32⟩ : BufTy).Contents (Elt Ideal)) (x7 : (⟨S32x32, .f32⟩ : BufTy).Contents (Elt Ideal))
    (x8 : (⟨S32x40, .f32⟩ : BufTy).Contents (Elt Ideal)) : (⟨S100000x40, .f32⟩ : BufTy).Contents (Elt Ideal) :=
  Cert.Sage.layer2 (agg x1 (h1 x0 x1 x2 x3 x4)) (h1 x0 x1 x2 x3 x4) (invCol x1) x5 (biasRow x6) x7 x8

end Cert.KernelIdeal.KVal

end
-- ==== Proof.RegionValues.lean ====
/-
  Each of the three dense passes as ONE whole-array function of the arrays its region finds on entry, at the extended reals.
  A pass runs over twenty grid points; point `t` owns rows `5000 t … 5000 t + 4999` of every array with 100000 rows and the
  whole of every small array (weights, bias). At the extended reals the roundings on the way into a product are the identity
  and a product into the zero accumulator is the plain sum over the contraction coordinate, so what a point writes back is
  block `t` of the pass's specification (`Cert.Sage.mm`, `layer1`, `layer2`) of the entry arrays; the twenty blocks cover
  the result (row `r` lies in block `r / 5000`), so the result array ends holding the specification.
-/
import proofs.«156842_j45423574122804_2_alg».proof.Proof.Gen.KernelIdeal.Frame
import proofs.«156842_j45423574122804_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-! ## Region 0: a plain matrix product -/

theorem mmA_lhs0 (j : S5000x32.Idx) (k : dot_S5000x64_S64x32_S5000x32_1_0_0_1_n_n.contr.Idx) : (dot_S5000x64_S64x32_S5000x32_1_0_0_1_n_n.lhsIdx j k 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem mmA_rhs1 (j : S5000x32.Idx) (k : dot_S5000x64_S64x32_S5000x32_1_0_0_1_n_n.contr.Idx) : (dot_S5000x64_S64x32_S5000x32_1_0_0_1_n_n.rhsIdx j k 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A [5000,64] by [64,32] product into the zero accumulator, read at an index: the sum over the contraction coordinate of the row's entry times the column's. -/
theorem mmA_apply (a : FVec Ideal S5000x64 .bf16) (b : FVec Ideal S64x32 .bf16) (j : S5000x32.Idx) :
    matmul dot_S5000x64_S64x32_S5000x32_1_0_0_1_n_n none a b (constant (F := Ideal) S5000x32 .f32 0x00000000#32) j
      = ∑ k : Fin 64, a (ix2 (j 0) k) * b (ix2 k (j 1)) := by
  refine (Ideal.matmul_constant_zero_apply dot_S5000x64_S64x32_S5000x32_1_0_0_1_n_n none a b j).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx j ((contrEquiv1 dot_S5000x64_S64x32_S5000x32_1_0_0_1_n_n 64 rfl rfl).symm k) = ix2 (j 0) k := funext fun ax => Fin.ext (by
    match ax with
    | ⟨0, _⟩ => exact mmA_lhs0 _ _
    | ⟨1, _⟩ => exact (dot_S5000x64_S64x32_S5000x32_1_0_0_1_n_n.lhsIdx_val_of_single rfl j _).trans hk)
  have er : dot_S5000x64_S64x32_S5000x32_1_0_0_1_n_n.rhsIdx j ((contrEquiv1 dot_S5000x64_S64x32_S5000x32_1_0_0_1_n_n 64 rfl rfl).symm k) = ix2 k (j 1) := funext fun ax => Fin.ext (by
    match ax with
    | ⟨0, _⟩ => exact (dot_S5000x64_S64x32_S5000x32_1_0_0_1_n_n.rhsIdx_val_of_single rfl j _).trans hk
    | ⟨1, _⟩ => exact mmA_rhs1 _ _)
  rw [el, er]
  rfl

/-- The first body's stored value at `(p, q)`: rounding the operands is the identity on extended reals, so it is the plain sum. -/
theorem pay0_apply (x0 : Vec Ideal S5000x64 .f32) (x1 : Vec Ideal S64x32 .f32) (p : Fin 5000) (q : Fin 32) :
    k0_pay1 (F := Ideal) x0 x1 (ix2 p q) = ∑ k : Fin 64, x0 (ix2 p k) * x1 (ix2 k q) := by
  unfold k0_pay1
  exact mmA_apply _ _ (ix2 p q)

/-- Block `b` of the product: rows `5000 b … 5000 b + 4999` of the left operand times the whole right operand. -/
theorem blk0_eq (A : S100000x64.Idx → EReal) (W : S64x32.Idx → EReal) (x0 : Vec Ideal S5000x64 .f32) (x1 : Vec Ideal S64x32 .f32) (b : Nat)
    (h0 : ∀ (y : S5000x64.Idx) (i : S100000x64.Idx), (i 0).val = b * 5000 + (y 0).val → (i 1).val = (y 1).val → x0 y = A i)
    (h1 : x1 = W) (j : S5000x32.Idx) (i : S100000x32.Idx) (hi0 : (i 0).val = b * 5000 + (j 0).val) (hi1 : (i 1).val = (j 1).val) :
    k0_pay1 (F := Ideal) x0 x1 j = Cert.Sage.mm A W i := by
  obtain ⟨p, q, rfl⟩ : ∃ (p : Fin 5000) (q : Fin 32), j = ix2 p q := ⟨j 0, j 1, eq_ix2 j⟩
  rw [pay0_apply]
  unfold Cert.Sage.mm
  have hq : i 1 = q := Fin.ext hi1
  refine Finset.sum_congr rfl fun k _ => ?_
  rw [h0 (ix2 p k) (ix2 (i 0) k) hi0 rfl, h1, hq]

/-- The index maps over the grid: the row-blocked windows sit at block (t, 0), the small ones at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (dat0 (F := Ideal) V c).flushed 2 t = ((cfg0.win 2).blk t).view.read (Elt Ideal) (Cert.Sage.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x32) hz]
  obtain ⟨e0, e1, e2, e3, e4, e5⟩ := idx_facts0 t
  funext j
  show k0_pay1 (F := Ideal) (iblk0 V c 0 t) (iblk0 V c 1 t) j = Cert.Sage.mm (V c main_arg0) (V c main_arg2) (((cfg0.win 2).blk t).view.emb j)
  refine blk0_eq (V c main_arg0) (V c main_arg2) (iblk0 V c 0 t) (iblk0 V c 1 t) t.val ?_ ?_ j (((cfg0.win 2).blk t).view.emb j) ?_ ?_
  · intro y i h0 h1
    show V c main_arg0 (((cfg0.win 0).blk t).view.emb y) = V c main_arg0 i
    refine congrArg (V c main_arg0) (funext fun a => Fin.ext ?_)
    match a with
    | ⟨0, _⟩ => show win0_0.index t (0 : Fin 2) * 5000 + 1 * (y 0).val = (i 0).val; rw [e0, h0]; omega
    | ⟨1, _⟩ => show win0_0.index t (1 : Fin 2) * 64 + 1 * (y 1).val = (i 1).val; rw [e1, h1]; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 64 + 1 * (y 0).val = (y 0).val; rw [e2]; omega
    | ⟨1, _⟩ => show win0_1.index t (1 : Fin 2) * 32 + 1 * (y 1).val = (y 1).val; rw [e3]; omega
  · show win0_2.index t (0 : Fin 2) * 5000 + 1 * (j 0).val = t.val * 5000 + (j 0).val; rw [e4]; omega
  · show win0_2.index t (1 : Fin 2) * 32 + 1 * (j 1).val = (j 1).val; rw [e5]; omega

/-- An index of the result is in point `t`'s block iff each coordinate is in the block's range on its axis. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v13).slice (win0_2.rect t)).set ↔ _
  rw [View.set_slice_whole, Rect.mem_set_unit]
  exact Iff.rfl

/-- Row `r` lies in the block of point `r / 5000`: the twenty blocks cover the array. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 5000 := ⟨⟨(i 0).val / 5000, by show _ < 20; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 32 ≤ (i 1).val ∧ (i 1).val < win0_2.index t (1 : Fin 2) * 32 + 32; rw [e5]; omega

/-- Region 0's result array after the region: the matrix product of the two arrays it stages, as the region finds them. -/
theorem final0 (c : Dev nD) :
    (dat0 (F := Ideal) V c).arrAt 2 cfg0.N = Cert.Sage.mm (V c main_arg0) (V c main_arg2) :=
  (dat0 (F := Ideal) V c).arrAt_eq_of_cover 2 (Cert.Sage.mm (V c main_arg0) (V c main_arg2)) (fun t _ => flushed0_eq V c t) cover0

/-! ## Region 1: the first layer -/

/-- A [5000,1] column broadcast along 32 lanes reads, at `(p, q)`, the column's entry `p`. -/
theorem bcast_col (v : Vec Ideal S5000x1 .f32) (p : Fin 5000) (q : Fin 32) :
    broadcastTo S5000x32 v broadcasts_S5000x1_S5000x32 (ix2 p q) = v (ix2 p (0 : Fin 1)) := by
  refine broadcastTo_apply v broadcasts_S5000x1_S5000x32 (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- A [1,32] row broadcast over 5000 rows reads, at `(p, q)`, the row's entry `q`. -/
theorem bcast_row (v : Vec Ideal S1x32 .f32) (p : Fin 5000) (q : Fin 32) :
    broadcastTo S5000x32 v broadcasts_S1x32_S5000x32 (ix2 p q) = v (ix2 (0 : Fin 1) q) :=
  broadcastTo_1b_ab_apply v broadcasts_S1x32_S5000x32 p q

/-- The second body's stored value at `(p, q)`: the aggregate scaled by the row's inverse degree, plus the row of features
    times the weight column, plus the bias, rectified. -/
theorem pay1_apply (v0 : Vec Ideal S5000x32 .f32) (v2 : Vec Ideal S5000x1 .f32) (v6 : Vec Ideal S5000x64 .f32) (v8 : Vec Ideal S64x32 .f32)
    (v12 : Vec Ideal S1x32 .f32) (p : Fin 5000) (q : Fin 32) :
    k1_pay1 (F := Ideal) v0 v2 v6 v8 v12 (ix2 p q)
      = max ((v0 (ix2 p q) * v2 (ix2 p (0 : Fin 1)) + ∑ k : Fin 64, v6 (ix2 p k) * v8 (ix2 k q)) + v12 (ix2 (0 : Fin 1) q)) 0 := by
  unfold k1_pay1
  simp only [shapeCast_self]
  show max ((v0 (ix2 p q) * broadcastTo S5000x32 v2 broadcasts_S5000x1_S5000x32 (ix2 p q)
      + matmul dot_S5000x64_S64x32_S5000x32_1_0_0_1_n_n none (truncf .bf16 v6 bitsLt_bf16_f32) (truncf .bf16 v8 bitsLt_bf16_f32)
          (constant (F := Ideal) S5000x32 .f32 0x00000000#32) (ix2 p q))
      + broadcastTo S5000x32 v12 broadcasts_S1x32_S5000x32 (ix2 p q)) (Ideal.ofBits .f32 0x00000000#32) = _
  rw [bcast_col, bcast_row, mmA_apply, Ideal.ofBits_zero_f32]
  rfl

/-- Block `b` of the first layer: rows `5000 b … 5000 b + 4999` of the aggregate, the features and the inverse degrees, with the
    whole bias and weight matrix. -/
theorem blk1_eq (agg : S100000x32.Idx → EReal) (x : S100000x64.Idx → EReal) (inv : S100000x1.Idx → EReal) (bias : S1x32.Idx → EReal)
    (Wr : S64x32.Idx → EReal)
    (v0 : Vec Ideal S5000x32 .f32) (v2 : Vec Ideal S5000x1 .f32) (v6 : Vec Ideal S5000x64 .f32) (v8 : Vec Ideal S64x32 .f32)
    (v12 : Vec Ideal S1x32 .f32) (b : Nat)
    (h0 : ∀ (y : S5000x32.Idx) (i : S100000x32.Idx), (i 0).val = b * 5000 + (y 0).val → (i 1).val = (y 1).val → v0 y = agg i)
    (h2 : ∀ (y : S5000x1.Idx) (i : S100000x1.Idx), (i 0).val = b * 5000 + (y 0).val → (i 1).val = (y 1).val → v2 y = inv i)
    (h6 : ∀ (y : S5000x64.Idx) (i : S100000x64.Idx), (i 0).val = b * 5000 + (y 0).val → (i 1).val = (y 1).val → v6 y = x i)
    (h8 : v8 = Wr) (h12 : v12 = bias)
    (j : S5000x32.Idx) (i : S100000x32.Idx) (hi0 : (i 0).val = b * 5000 + (j 0).val) (hi1 : (i 1).val = (j 1).val) :
    k1_pay1 (F := Ideal) v0 v2 v6 v8 v12 j = Cert.Sage.layer1 agg x inv bias Wr i := by
  obtain ⟨p, q, rfl⟩ : ∃ (p : Fin 5000) (q : Fin 32), j = ix2 p q := ⟨j 0, j 1, eq_ix2 j⟩
  rw [pay1_apply]
  unfold Cert.Sage.layer1 Cert.Sage.mm
  have hq : i 1 = q := Fin.ext hi1
  have hs : ∑ k : Fin 64, v6 (ix2 p k) * v8 (ix2 k q) = ∑ k : Fin 64, x (ix2 (i 0) k) * Wr (ix2 k q) :=
    Finset.sum_congr rfl fun k _ => by rw [h6 (ix2 p k) (ix2 (i 0) k) hi0 rfl, h8]
  rw [hs, h0 (ix2 p q) i hi0 hi1, h2 (ix2 p (0 : Fin 1)) (ix2 (i 0) (0 : Fin 1)) hi0 rfl, h12, hq]

/-- The index maps over the grid: the row-blocked windows sit at block (t, 0), the small ones at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the first layer of the five arrays as the region finds them. -/
theorem flushed1_eq (c : Dev nD) (t : Fin cfg1.N) :
    (dat1 (F := Ideal) V c).flushed 5 t = ((cfg1.win 5).blk t).view.read (Elt Ideal)
      (Cert.Sage.layer1 (V c main_v25) (V c main_arg0) (V c main_v12) (V c main_v26) (V c main_arg4)) := by
  show (cfg1.win 5).cut (grid1.coords t) ((dat1 V c).after 5 t) = _
  rw [after1_5]
  unfold out1_5
  rw [View.canon_unit_zero hz]
  simp only [View.ld_unit_zero (S := S5000x32) hz, View.ld_unit_zero (S := S5000x64) hz, View.ld_unit_zero (S := S5000x1) hz,
    View.ld_unit_zero (S := S1x32) hz, View.ld_unit_zero (S := S64x32) hz]
  obtain ⟨e00, e01, e10, e11, e20, e21, e30, e31, e40, e41, e50, e51⟩ := idx_facts1 t
  funext j
  show k1_pay1 (F := Ideal) (iblk1 V c 0 t) (iblk1 V c 2 t) (iblk1 V c 1 t) (iblk1 V c 4 t) (iblk1 V c 3 t) j
    = Cert.Sage.layer1 (V c main_v25) (V c main_arg0) (V c main_v12) (V c main_v26) (V c main_arg4) (((cfg1.win 5).blk t).view.emb j)
  refine blk1_eq (V c main_v25) (V c main_arg0) (V c main_v12) (V c main_v26) (V c main_arg4)
    (iblk1 V c 0 t) (iblk1 V c 2 t) (iblk1 V c 1 t) (iblk1 V c 4 t) (iblk1 V c 3 t) t.val ?_ ?_ ?_ ?_ ?_ j (((cfg1.win 5).blk t).view.emb j) ?_ ?_
  · intro y i h0 h1
    show V c main_v25 (((cfg1.win 0).blk t).view.emb y) = V c main_v25 i
    refine congrArg (V c main_v25) (funext fun a => Fin.ext ?_)
    match a with
    | ⟨0, _⟩ => show win1_0.index t (0 : Fin 2) * 5000 + 1 * (y 0).val = (i 0).val; rw [e00, h0]; omega
    | ⟨1, _⟩ => show win1_0.index t (1 : Fin 2) * 32 + 1 * (y 1).val = (i 1).val; rw [e01, h1]; omega
  · intro y i h0 h1
    show V c main_v12 (((cfg1.win 2).blk t).view.emb y) = V c main_v12 i
    refine congrArg (V c main_v12) (funext fun a => Fin.ext ?_)
    match a with
    | ⟨0, _⟩ => show win1_2.index t (0 : Fin 2) * 5000 + 1 * (y 0).val = (i 0).val; rw [e20, h0]; omega
    | ⟨1, _⟩ => show win1_2.index t (1 : Fin 2) * 1 + 1 * (y 1).val = (i 1).val; rw [e21, h1]; omega
  · intro y i h0 h1
    show V c main_arg0 (((cfg1.win 1).blk t).view.emb y) = V c main_arg0 i
    refine congrArg (V c main_arg0) (funext fun a => Fin.ext ?_)
    match a with
    | ⟨0, _⟩ => show win1_1.index t (0 : Fin 2) * 5000 + 1 * (y 0).val = (i 0).val; rw [e10, h0]; omega
    | ⟨1, _⟩ => show win1_1.index t (1 : Fin 2) * 64 + 1 * (y 1).val = (i 1).val; rw [e11, h1]; omega
  · funext y
    show V c main_arg4 (((cfg1.win 4).blk t).view.emb y) = V c main_arg4 y
    refine congrArg (V c main_arg4) (funext fun a => Fin.ext ?_)
    match a with
    | ⟨0, _⟩ => show win1_4.index t (0 : Fin 2) * 64 + 1 * (y 0).val = (y 0).val; rw [e40]; omega
    | ⟨1, _⟩ => show win1_4.index t (1 : Fin 2) * 32 + 1 * (y 1).val = (y 1).val; rw [e41]; omega
  · funext y
    show V c main_v26 (((cfg1.win 3).blk t).view.emb y) = V c main_v26 y
    refine congrArg (V c main_v26) (funext fun a => Fin.ext ?_)
    match a with
    | ⟨0, _⟩ => show win1_3.index t (0 : Fin 2) * 1 + 1 * (y 0).val = (y 0).val; rw [e30]; omega
    | ⟨1, _⟩ => show win1_3.index t (1 : Fin 2) * 32 + 1 * (y 1).val = (y 1).val; rw [e31]; omega
  · show win1_5.index t (0 : Fin 2) * 5000 + 1 * (j 0).val = t.val * 5000 + (j 0).val; rw [e50]; omega
  · show win1_5.index t (1 : Fin 2) * 32 + 1 * (j 1).val = (j 1).val; rw [e51]; omega

/-- An index of the result is in point `t`'s block iff each coordinate is in the block's range on its axis. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v27).slice (win1_5.rect t)).set ↔ _
  rw [View.set_slice_whole, Rect.mem_set_unit]
  exact Iff.rfl

/-- Row `r` lies in the block of point `r / 5000`: the twenty blocks cover the array. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 5000 := ⟨⟨(i 0).val / 5000, by show _ < 20; omega⟩, rfl⟩
  obtain ⟨-, -, -, -, -, -, -, -, -, -, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e50, ht]; omega
  | ⟨1, _⟩ => show win1_5.index t (1 : Fin 2) * 32 ≤ (i 1).val ∧ (i 1).val < win1_5.index t (1 : Fin 2) * 32 + 32; rw [e51]; omega

/-- Region 1's result array after the region: the first layer of the five arrays it stages, as the region finds them. -/
theorem final1 (c : Dev nD) :
    (dat1 (F := Ideal) V c).arrAt 5 cfg1.N
      = Cert.Sage.layer1 (V c main_v25) (V c main_arg0) (V c main_v12) (V c main_v26) (V c main_arg4) :=
  (dat1 (F := Ideal) V c).arrAt_eq_of_cover 5 (Cert.Sage.layer1 (V c main_v25) (V c main_arg0) (V c main_v12) (V c main_v26) (V c main_arg4))
    (fun t _ => flushed1_eq V c t) cover1

/-! ## Region 2: the second layer and the read-out -/

theorem mmB_lhs0 (j : S5000x32.Idx) (k : dot_S5000x32_S32x32_S5000x32_1_0_0_1_n_n.contr.Idx) : (dot_S5000x32_S32x32_S5000x32_1_0_0_1_n_n.lhsIdx j k 0).val = (j 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem mmB_rhs1 (j : S5000x32.Idx) (k : dot_S5000x32_S32x32_S5000x32_1_0_0_1_n_n.contr.Idx) : (dot_S5000x32_S32x32_S5000x32_1_0_0_1_n_n.rhsIdx j k 1).val = (j 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A [5000,32] by [32,32] product into the zero accumulator, read at an index: the sum over the contraction coordinate. -/
theorem mmB_apply (a : FVec Ideal S5000x32 .bf16) (b : FVec Ideal S32x32 .bf16) (j : S5000x32.Idx) :
    matmul dot_S5000x32_S32x32_S5000x32_1_0_0_1_n_n none a b (constant (F := Ideal) S5000x32 .f32 0x00000000#32) j
      = ∑ k : Fin 32, a (ix2 (j 0) k) * b (ix2 k (j 1)) := by
  refine (Ideal.matmul_constant_zero_apply dot_S5000x32_S32x32_S5000x32_1_0_0_1_n_n none a b j).trans ?_
  rw [← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx j ((contrEquiv1 dot_S5000x32_S32x32_S5000x32_1_0_0_1_n_n 32 rfl rfl).symm k) = ix2 (j 0) k := funext fun ax => Fin.ext (by
    match ax with
    | ⟨0, _⟩ => exact mmB_lhs0 _ _
    | ⟨1, _⟩ => exact (dot_S5000x32_S32x32_S5000x32_1_0_0_1_n_n.lhsIdx_val_of_single rfl j _).trans hk)
  have er : dot_S5000x32_S32x32_S5000x32_1_0_0_1_n_n.rhsIdx j ((contrEquiv1 dot_S5000x32_S32x32_S5000x32_1_0_0_1_n_n 32 rfl rfl).symm k) = ix2 k (j 1) := funext fun ax => Fin.ext (by
    match ax with
    | ⟨0, _⟩ => exact (dot_S5000x32_S32x32_S5000x32_1_0_0_1_n_n.rhsIdx_val_of_single rfl j _).trans hk
    | ⟨1, _⟩ => exact mmB_rhs1 _ _)
  rw [el, er]
  rfl

theorem mmC_lhs0 (j : S5000x40.Idx) (k : dot_S5000x32_S32x40_S5000x40_1_0_0_1_n_n.contr.Idx) : (dot_S5000x32_S32x40_S5000x40_1_0_0_1_n_n.lhsIdx j k 0).val = (j 0).val := by
  unfold DotDims.lhsIdx
  rw [dif_neg (show ¬(0 : Fin S5000x32.rank) ∈ dot_S5000x32_S32x40_S5000x40_1_0_0_1_n_n.lhsBatch by decide), dif_pos (show (0 : Fin S5000x32.rank) ∈ dot_S5000x32_S32x40_S5000x40_1_0_0_1_n_n.lhsNonContracting by decide)]
  rfl
theorem mmC_rhs1 (j : S5000x40.Idx) (k : dot_S5000x32_S32x40_S5000x40_1_0_0_1_n_n.contr.Idx) : (dot_S5000x32_S32x40_S5000x40_1_0_0_1_n_n.rhsIdx j k 1).val = (j 1).val := by
  unfold DotDims.rhsIdx
  rw [dif_neg (show ¬(1 : Fin S32x40.rank) ∈ dot_S5000x32_S32x40_S5000x40_1_0_0_1_n_n.rhsBatch by decide), dif_pos (show (1 : Fin S32x40.rank) ∈ dot_S5000x32_S32x40_S5000x40_1_0_0_1_n_n.rhsNonContracting by decide)]
  rfl

/-- A [5000,32] by [32,40] product into the zero accumulator, read at an index: the sum over the contraction coordinate. -/
theorem mmC_apply (a : FVec Ideal S5000x32 .bf16) (b : FVec Ideal S32x40 .bf16) (j : S5000x40.Idx) :
    matmul dot_S5000x32_S32x40_S5000x40_1_0_0_1_n_n none a b (constant (F := Ideal) S5000x40 .f32 0x00000000#32) j
      = ∑ k : Fin 32, a (ix2 (j 0) k) * b (ix2 k (j 1)) := by
  refine (Ideal.matmul_constant_zero_apply dot_S5000x32_S32x40_S5000x40_1_0_0_1_n_n none a b j).trans ?_
  rw [← Equiv.sum_comp (contrEquiv1 dot_S5000x32_S32x40_S5000x40_1_0_0_1_n_n 32 rfl rfl).symm]
  refine Finset.sum_congr rfl fun k _ => ?_
  have hk := contrEquiv1_symm_val dot_S5000x32_S32x40_S5000x40_1_0_0_1_n_n 32 rfl rfl k
  have el : dot_S5000x32_S32x40_S5000x40_1_0_0_1_n_n.lhsIdx j ((contrEquiv1 dot_S5000x32_S32x40_S5000x40_1_0_0_1_n_n 32 rfl rfl).symm k) = ix2 (j 0) k := funext fun ax => Fin.ext (by
    match ax with
    | ⟨0, _⟩ => exact mmC_lhs0 _ _
    | ⟨1, _⟩ => exact (dot_S5000x32_S32x40_S5000x40_1_0_0_1_n_n.lhsIdx_val_of_single rfl j _).trans hk)
  have er : dot_S5000x32_S32x40_S5000x40_1_0_0_1_n_n.rhsIdx j ((contrEquiv1 dot_S5000x32_S32x40_S5000x40_1_0_0_1_n_n 32 rfl rfl).symm k) = ix2 k (j 1) := funext fun ax => Fin.ext (by
    match ax with
    | ⟨0, _⟩ => exact (dot_S5000x32_S32x40_S5000x40_1_0_0_1_n_n.rhsIdx_val_of_single rfl j _).trans hk
    | ⟨1, _⟩ => exact mmC_rhs1 _ _)
  rw [el, er]
  rfl

/-- The third body's stored value at `(p, r)`: the hidden features of row `p` — the scaled aggregate times the neighbour-side
    weights, plus the row's own features times the self-side weights, plus the bias, rectified — times column `r` of the
    read-out matrix. -/
theorem pay2_apply (v0 : Vec Ideal S5000x32 .f32) (v2 : Vec Ideal S5000x1 .f32) (v7 : Vec Ideal S5000x32 .f32) (v10 : Vec Ideal S32x32 .f32)
    (v12 : Vec Ideal S32x32 .f32) (v17 : Vec Ideal S1x32 .f32) (v24 : Vec Ideal S32x40 .f32) (p : Fin 5000) (r : Fin 40) :
    k2_pay1 (F := Ideal) v0 v2 v7 v10 v12 v17 v24 (ix2 p r)
      = ∑ q : Fin 32, max ((∑ k : Fin 32, (v0 (ix2 p k) * v2 (ix2 p (0 : Fin 1))) * v10 (ix2 k q)
            + ∑ k : Fin 32, v7 (ix2 p k) * v12 (ix2 k q)) + v17 (ix2 (0 : Fin 1) q)) 0 * v24 (ix2 q r) := by
  unfold k2_pay1
  simp only [shapeCast_self]
  refine (mmC_apply _ _ (ix2 p r)).trans (Finset.sum_congr rfl fun q _ => ?_)
  show max ((matmul dot_S5000x32_S32x32_S5000x32_1_0_0_1_n_n none (truncf .bf16 (mulf v0 (broadcastTo S5000x32 v2 broadcasts_S5000x1_S5000x32)) bitsLt_bf16_f32)
          (truncf .bf16 v10 bitsLt_bf16_f32) (constant (F := Ideal) S5000x32 .f32 0x00000000#32) (ix2 p q)
      + matmul dot_S5000x32_S32x32_S5000x32_1_0_0_1_n_n none (truncf .bf16 v7 bitsLt_bf16_f32) (truncf .bf16 v12 bitsLt_bf16_f32)
          (constant (F := Ideal) S5000x32 .f32 0x00000000#32) (ix2 p q))
      + broadcastTo S5000x32 v17 broadcasts_S1x32_S5000x32 (ix2 p q)) (Ideal.ofBits .f32 0x00000000#32) * v24 (ix2 q r) = _
  rw [mmB_apply, mmB_apply, bcast_row, Ideal.ofBits_zero_f32]
  refine congrArg (fun s => max ((s + _) + v17 (ix2 (0 : Fin 1) q)) 0 * v24 (ix2 q r)) ?_
  refine Finset.sum_congr rfl fun k _ => ?_
  show (v0 (ix2 p k) * broadcastTo S5000x32 v2 broadcasts_S5000x1_S5000x32 (ix2 p k)) * v10 (ix2 k q) = _
  rw [bcast_col]

/-- Block `b` of the second layer and read-out: rows `5000 b … 5000 b + 4999` of the aggregate, the first layer's features and the
    inverse degrees, with the whole of the two weight matrices, the bias and the read-out matrix. -/
theorem blk2_eq (agg h : S100000x32.Idx → EReal) (inv : S100000x1.Idx → EReal) (Wl : S32x32.Idx → EReal) (bias : S1x32.Idx → EReal)
    (Wr : S32x32.Idx → EReal) (w : S32x40.Idx → EReal)
    (v0 : Vec Ideal S5000x32 .f32) (v2 : Vec Ideal S5000x1 .f32) (v7 : Vec Ideal S5000x32 .f32) (v10 : Vec Ideal S32x32 .f32)
    (v12 : Vec Ideal S32x32 .f32) (v17 : Vec Ideal S1x32 .f32) (v24 : Vec Ideal S32x40 .f32) (b : Nat)
    (h0 : ∀ (y : S5000x32.Idx) (i : S100000x32.Idx), (i 0).val = b * 5000 + (y 0).val → (i 1).val = (y 1).val → v0 y = agg i)
    (h2 : ∀ (y : S5000x1.Idx) (i : S100000x1.Idx), (i 0).val = b * 5000 + (y 0).val → (i 1).val = (y 1).val → v2 y = inv i)
    (h7 : ∀ (y : S5000x32.Idx) (i : S100000x32.Idx), (i 0).val = b * 5000 + (y 0).val → (i 1).val = (y 1).val → v7 y = h i)
    (h10 : v10 = Wl) (h12 : v12 = Wr) (h17 : v17 = bias) (h24 : v24 = w)
    (j : S5000x40.Idx) (i : S100000x40.Idx) (hi0 : (i 0).val = b * 5000 + (j 0).val) (hi1 : (i 1).val = (j 1).val) :
    k2_pay1 (F := Ideal) v0 v2 v7 v10 v12 v17 v24 j = Cert.Sage.layer2 agg h inv Wl bias Wr w i := by
  obtain ⟨p, r, rfl⟩ : ∃ (p : Fin 5000) (r : Fin 40), j = ix2 p r := ⟨j 0, j 1, eq_ix2 j⟩
  rw [pay2_apply, h10, h12, h17, h24]
  have hr : i 1 = r := Fin.ext hi1
  show _ = ∑ q : Fin 32, max ((∑ k : Fin 32, (agg (ix2 (i 0) k) * inv (ix2 (i 0) (0 : Fin 1))) * Wl (ix2 k q)
      + ∑ k : Fin 32, h (ix2 (i 0) k) * Wr (ix2 k q)) + bias (ix2 (0 : Fin 1) q)) 0 * w (ix2 q (i 1))
  rw [hr]
  refine Finset.sum_congr rfl fun q _ => ?_
  have hsA : ∑ k : Fin 32, (v0 (ix2 p k) * v2 (ix2 p (0 : Fin 1))) * Wl (ix2 k q)
      = ∑ k : Fin 32, (agg (ix2 (i 0) k) * inv (ix2 (i 0) (0 : Fin 1))) * Wl (ix2 k q) :=
    Finset.sum_congr rfl fun k _ => by
      rw [h0 (ix2 p k) (ix2 (i 0) k) hi0 rfl, h2 (ix2 p (0 : Fin 1)) (ix2 (i 0) (0 : Fin 1)) hi0 rfl]
  have hsB : ∑ k : Fin 32, v7 (ix2 p k) * Wr (ix2 k q) = ∑ k : Fin 32, h (ix2 (i 0) k) * Wr (ix2 k q) :=
    Finset.sum_congr rfl fun k _ => by rw [h7 (ix2 p k) (ix2 (i 0) k) hi0 rfl]
  rw [hsA, hsB]

/-- The index maps over the grid: the row-blocked windows sit at block (t, 0), the small ones at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- What point `t` writes back is block `t` of the second layer and read-out of the seven arrays as the region finds them. -/
theorem flushed2_eq (c : Dev nD) (t : Fin cfg2.N) :
    (dat2 (F := Ideal) V c).flushed 7 t = ((cfg2.win 7).blk t).view.read (Elt Ideal)
      (Cert.Sage.layer2 (V c main_v37) (V c main_v27) (V c main_v12) (V c main_arg5) (V c main_v38) (V c main_arg7) (V c main_arg8)) := by
  show (cfg2.win 7).cut (grid2.coords t) ((dat2 V c).after 7 t) = _
  rw [after2_7]
  unfold out2_7
  rw [View.canon_unit_zero hz]
  simp only [View.ld_unit_zero (S := S5000x32) hz, View.ld_unit_zero (S := S5000x1) hz, View.ld_unit_zero (S := S32x32) hz,
    View.ld_unit_zero (S := S1x32) hz, View.ld_unit_zero (S := S32x40) hz]
  obtain ⟨e00, e01, e10, e11, e20, e21, e30, e31, e40, e41, e50, e51, e60, e61, e70, e71⟩ := idx_facts2 t
  funext j
  show k2_pay1 (F := Ideal) (iblk2 V c 0 t) (iblk2 V c 2 t) (iblk2 V c 1 t) (iblk2 V c 3 t) (iblk2 V c 5 t) (iblk2 V c 4 t) (iblk2 V c 6 t) j
    = Cert.Sage.layer2 (V c main_v37) (V c main_v27) (V c main_v12) (V c main_arg5) (V c main_v38) (V c main_arg7) (V c main_arg8)
        (((cfg2.win 7).blk t).view.emb j)
  refine blk2_eq (V c main_v37) (V c main_v27) (V c main_v12) (V c main_arg5) (V c main_v38) (V c main_arg7) (V c main_arg8)
    (iblk2 V c 0 t) (iblk2 V c 2 t) (iblk2 V c 1 t) (iblk2 V c 3 t) (iblk2 V c 5 t) (iblk2 V c 4 t) (iblk2 V c 6 t) t.val
    ?_ ?_ ?_ ?_ ?_ ?_ ?_ j (((cfg2.win 7).blk t).view.emb j) ?_ ?_
  · intro y i h0 h1
    show V c main_v37 (((cfg2.win 0).blk t).view.emb y) = V c main_v37 i
    refine congrArg (V c main_v37) (funext fun a => Fin.ext ?_)
    match a with
    | ⟨0, _⟩ => show win2_0.index t (0 : Fin 2) * 5000 + 1 * (y 0).val = (i 0).val; rw [e00, h0]; omega
    | ⟨1, _⟩ => show win2_0.index t (1 : Fin 2) * 32 + 1 * (y 1).val = (i 1).val; rw [e01, h1]; omega
  · intro y i h0 h1
    show V c main_v12 (((cfg2.win 2).blk t).view.emb y) = V c main_v12 i
    refine congrArg (V c main_v12) (funext fun a => Fin.ext ?_)
    match a with
    | ⟨0, _⟩ => show win2_2.index t (0 : Fin 2) * 5000 + 1 * (y 0).val = (i 0).val; rw [e20, h0]; omega
    | ⟨1, _⟩ => show win2_2.index t (1 : Fin 2) * 1 + 1 * (y 1).val = (i 1).val; rw [e21, h1]; omega
  · intro y i h0 h1
    show V c main_v27 (((cfg2.win 1).blk t).view.emb y) = V c main_v27 i
    refine congrArg (V c main_v27) (funext fun a => Fin.ext ?_)
    match a with
    | ⟨0, _⟩ => show win2_1.index t (0 : Fin 2) * 5000 + 1 * (y 0).val = (i 0).val; rw [e10, h0]; omega
    | ⟨1, _⟩ => show win2_1.index t (1 : Fin 2) * 32 + 1 * (y 1).val = (i 1).val; rw [e11, h1]; omega
  · funext y
    show V c main_arg5 (((cfg2.win 3).blk t).view.emb y) = V c main_arg5 y
    refine congrArg (V c main_arg5) (funext fun a => Fin.ext ?_)
    match a with
    | ⟨0, _⟩ => show win2_3.index t (0 : Fin 2) * 32 + 1 * (y 0).val = (y 0).val; rw [e30]; omega
    | ⟨1, _⟩ => show win2_3.index t (1 : Fin 2) * 32 + 1 * (y 1).val = (y 1).val; rw [e31]; omega
  · funext y
    show V c main_arg7 (((cfg2.win 5).blk t).view.emb y) = V c main_arg7 y
    refine congrArg (V c main_arg7) (funext fun a => Fin.ext ?_)
    match a with
    | ⟨0, _⟩ => show win2_5.index t (0 : Fin 2) * 32 + 1 * (y 0).val = (y 0).val; rw [e50]; omega
    | ⟨1, _⟩ => show win2_5.index t (1 : Fin 2) * 32 + 1 * (y 1).val = (y 1).val; rw [e51]; omega
  · funext y
    show V c main_v38 (((cfg2.win 4).blk t).view.emb y) = V c main_v38 y
    refine congrArg (V c main_v38) (funext fun a => Fin.ext ?_)
    match a with
    | ⟨0, _⟩ => show win2_4.index t (0 : Fin 2) * 1 + 1 * (y 0).val = (y 0).val; rw [e40]; omega
    | ⟨1, _⟩ => show win2_4.index t (1 : Fin 2) * 32 + 1 * (y 1).val = (y 1).val; rw [e41]; omega
  · funext y
    show V c main_arg8 (((cfg2.win 6).blk t).view.emb y) = V c main_arg8 y
    refine congrArg (V c main_arg8) (funext fun a => Fin.ext ?_)
    match a with
    | ⟨0, _⟩ => show win2_6.index t (0 : Fin 2) * 32 + 1 * (y 0).val = (y 0).val; rw [e60]; omega
    | ⟨1, _⟩ => show win2_6.index t (1 : Fin 2) * 40 + 1 * (y 1).val = (y 1).val; rw [e61]; omega
  · show win2_7.index t (0 : Fin 2) * 5000 + 1 * (j 0).val = t.val * 5000 + (j 0).val; rw [e70]; omega
  · show win2_7.index t (1 : Fin 2) * 40 + 1 * (j 1).val = (j 1).val; rw [e71]; omega

/-- An index of the result is in point `t`'s block iff each coordinate is in the block's range on its axis. -/
theorem mem_blk2 (t : Fin cfg2.N) (i : S100000x40.Idx) :
    i ∈ ((cfg2.win 7).blk t).view.set ↔ ∀ a : Fin 2, win2_7.index t a * S5000x40.size a ≤ (i a).val ∧ (i a).val < win2_7.index t a * S5000x40.size a + S5000x40.size a := by
  show i ∈ ((View.whole main_v39).slice (win2_7.rect t)).set ↔ _
  rw [View.set_slice_whole, Rect.mem_set_unit]
  exact Iff.rfl

/-- Row `r` lies in the block of point `r / 5000`: the twenty blocks cover the array. -/
theorem cover2 (i : S100000x40.Idx) : ∃ t : Fin cfg2.N, (cfg2.win 7).flush t = true ∧ i ∈ ((cfg2.win 7).blk t).view.set := by
  have hi0 : (i 0).val < 100000 := (i 0).isLt
  have hi1 : (i 1).val < 40 := (i 1).isLt
  obtain ⟨t, ht⟩ : ∃ t : Fin cfg2.N, t.val = (i 0).val / 5000 := ⟨⟨(i 0).val / 5000, by show _ < 20; omega⟩, rfl⟩
  obtain ⟨-, -, -, -, -, -, -, -, -, -, -, -, -, -, e70, e71⟩ := idx_facts2 t
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; rw [e70, ht]; omega
  | ⟨1, _⟩ => show win2_7.index t (1 : Fin 2) * 40 ≤ (i 1).val ∧ (i 1).val < win2_7.index t (1 : Fin 2) * 40 + 40; rw [e71]; omega

/-- Region 2's result array after the region: the second layer and read-out of the seven arrays it stages, as the region finds them. -/
theorem final2 (c : Dev nD) :
    (dat2 (F := Ideal) V c).arrAt 7 cfg2.N
      = Cert.Sage.layer2 (V c main_v37) (V c main_v27) (V c main_v12) (V c main_arg5) (V c main_v38) (V c main_arg7) (V c main_arg8) :=
  (dat2 (F := Ideal) V c).arrAt_eq_of_cover 7
    (Cert.Sage.layer2 (V c main_v37) (V c main_v27) (V c main_v12) (V c main_arg5) (V c main_v38) (V c main_arg7) (V c main_arg8))
    (fun t _ => flushed2_eq V c t) cover2

end Cert.KernelIdeal.RegionValue

end
-- ==== Proof.KernelValue.lean ====
/-
  The idealized kernel's result array as one function of the argument arrays.

  The program folds, from the launch memory: a stretch of host operations (the edge list split into source and destination
  rows, the in-degree of every node and its clamped reciprocal), the first launch (node features times the neighbour-side weight
  matrix), a second stretch (the rows of that product gathered at the sources and added up at the destinations), the second
  launch (first layer), a third stretch (the first layer's rows gathered and added up in the same way), the third launch
  (second layer and read-out). Each buffer a later step reads is walked back through the fold to the step that wrote it.
-/
import proofs.«156842_j45423574122804_2_alg».proof.Proof.Gen.KernelIdeal.Frame
import proofs.«156842_j45423574122804_2_alg».proof.Proof.Gen.ReferenceIdeal.Read
import proofs.«156842_j45423574122804_2_alg».proof.Proof.Spec
import proofs.«156842_j45423574122804_2_alg».proof.Proof.KernelTerm
import proofs.«156842_j45423574122804_2_alg».proof.Proof.RegionValues
import Idealize.ShloMosaic.Lib.StableHlo.Run
import Idealize.ShloMosaic.PureOps.Ideal

set_option maxRecDepth 16384

noncomputable section

namespace Cert.KernelIdeal.KVal

open Cert.KernelIdeal Cert.KernelIdeal.Gen
open Idealize.ShloMosaic Idealize.ShloMosaic.TcCoe Idealize.SL.Sem Idealize.ShloMosaic.StableHlo
open Cert.ReferenceIdeal.Read (val_main_v1 val_main_v3 val_main_v11)

/-! ## The fold, buffer by buffer -/

section Fold

variable (m : (ℓ : Loc nD τ sig) → Buf (Elt Ideal) ℓ) (ρ : Dev nD → PrngReg) (c : Dev nD)

/-! ### After the first stretch: the arguments untouched, the edge rows and the reciprocal in-degrees written -/

theorem w1_arg0 : W1 m ρ c (Proc.devRef .tc main_arg0) = (m ((c : Thread nD τ).loc main_arg0)) := by
  show StableHlo.after hostOps0 (W0 m ρ c) _ = _
  after_results
  try rfl
theorem w1_arg1 : W1 m ρ c (Proc.devRef .tc main_arg1) = (m ((c : Thread nD τ).loc main_arg1)) := by
  show StableHlo.after hostOps0 (W0 m ρ c) _ = _
  after_results
  try rfl
theorem w1_arg2 : W1 m ρ c (Proc.devRef .tc main_arg2) = (m ((c : Thread nD τ).loc main_arg2)) := by
  show StableHlo.after hostOps0 (W0 m ρ c) _ = _
  after_results
  try rfl
theorem w1_arg3 : W1 m ρ c (Proc.devRef .tc main_arg3) = (m ((c : Thread nD τ).loc main_arg3)) := by
  show StableHlo.after hostOps0 (W0 m ρ c) _ = _
  after_results
  try rfl
theorem w1_arg4 : W1 m ρ c (Proc.devRef .tc main_arg4) = (m ((c : Thread nD τ).loc main_arg4)) := by
  show StableHlo.after hostOps0 (W0 m ρ c) _ = _
  after_results
  try rfl
theorem w1_arg5 : W1 m ρ c (Proc.devRef .tc main_arg5) = (m ((c : Thread nD τ).loc main_arg5)) := by
  show StableHlo.after hostOps0 (W0 m ρ c) _ = _
  after_results
  try rfl
theorem w1_arg6 : W1 m ρ c (Proc.devRef .tc main_arg6) = (m ((c : Thread nD τ).loc main_arg6)) := by
  show StableHlo.after hostOps0 (W0 m ρ c) _ = _
  after_results
  try rfl
theorem w1_arg7 : W1 m ρ c (Proc.devRef .tc main_arg7) = (m ((c : Thread nD τ).loc main_arg7)) := by
  show StableHlo.after hostOps0 (W0 m ρ c) _ = _
  after_results
  try rfl
theorem w1_arg8 : W1 m ρ c (Proc.devRef .tc main_arg8) = (m ((c : Thread nD τ).loc main_arg8)) := by
  show StableHlo.after hostOps0 (W0 m ρ c) _ = _
  after_results
  try rfl
theorem w1_v1 : W1 m ρ c (Proc.devRef .tc main_v1) = val_main_v1 (F := Ideal) (m ((c : Thread nD τ).loc main_arg1)) := by
  show StableHlo.after hostOps0 (W0 m ρ c) _ = _
  after_results
  try rfl
theorem w1_v3 : W1 m ρ c (Proc.devRef .tc main_v3) = val_main_v3 (F := Ideal) (m ((c : Thread nD τ).loc main_arg1)) := by
  show StableHlo.after hostOps0 (W0 m ρ c) _ = _
  after_results
  try rfl
set_option maxRecDepth 200000 in
theorem w1_v12 : W1 m ρ c (Proc.devRef .tc main_v12) = invCol (m ((c : Thread nD τ).loc main_arg1)) := by
  show StableHlo.after hostOps0 (W0 m ρ c) _ = _
  after_results
  try rfl

/-! ### After the first launch: its two input arrays as entered, its output the matrix product, the rest untouched -/

theorem w2_arg0 : W2 m ρ c (Proc.devRef .tc main_arg0) = (m ((c : Thread nD τ).loc main_arg0)) :=
  ((W2_arr m ρ c 0).trans (((dat0 (V1 m ρ) c).arrAt_in 0 rfl _).trans (A_eq0 (V1 m ρ) c 0))).trans (w1_arg0 m ρ c)
theorem w2_arg2 : W2 m ρ c (Proc.devRef .tc main_arg2) = (m ((c : Thread nD τ).loc main_arg2)) :=
  ((W2_arr m ρ c 1).trans (((dat0 (V1 m ρ) c).arrAt_in 1 rfl _).trans (A_eq0 (V1 m ρ) c 1))).trans (w1_arg2 m ρ c)
theorem w2_arg1 : W2 m ρ c (Proc.devRef .tc main_arg1) = (m ((c : Thread nD τ).loc main_arg1)) :=
  (W2_of_ne m ρ c main_arg1 (by decide)).trans (w1_arg1 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v12 : W2 m ρ c (Proc.devRef .tc main_v12) = invCol (m ((c : Thread nD τ).loc main_arg1)) :=
  (W2_of_ne m ρ c main_v12 (by decide)).trans (w1_v12 m ρ c)
theorem w2_v13 : W2 m ρ c (Proc.devRef .tc main_v13) = Cert.Sage.mm (m ((c : Thread nD τ).loc main_arg0)) (m ((c : Thread nD τ).loc main_arg2)) :=
  (W2_arr m ρ c 2).trans ((Cert.KernelIdeal.RegionValue.final0 (V1 m ρ) c).trans (congrArg₂ Cert.Sage.mm (w1_arg0 m ρ c) (w1_arg2 m ρ c)))

/-! ### After the second stretch: the product's rows aggregated over the edges, the first bias as a row -/

theorem w3_v25 : W3 m ρ c (Proc.devRef .tc main_v25) = aggNarrow (m ((c : Thread nD τ).loc main_arg1)) (Cert.Sage.mm (m ((c : Thread nD τ).loc main_arg0)) (m ((c : Thread nD τ).loc main_arg2))) := by
  show StableHlo.after hostOps1 (W2 m ρ c) _ = _
  after_results
  rw [w2_v3 m ρ c, w2_v13 m ρ c, w2_v1 m ρ c]
  rfl
theorem w3_v26 : W3 m ρ c (Proc.devRef .tc main_v26) = biasRow (m ((c : Thread nD τ).loc main_arg3)) := by
  show StableHlo.after hostOps1 (W2 m ρ c) _ = _
  after_results
  rw [w2_arg3 m ρ c]
  rfl
theorem w3_arg0 : W3 m ρ c (Proc.devRef .tc main_arg0) = (m ((c : Thread nD τ).loc main_arg0)) := by
  show StableHlo.after hostOps1 (W2 m ρ c) _ = _
  after_results
  exact w2_arg0 m ρ c
theorem w3_arg4 : W3 m ρ c (Proc.devRef .tc main_arg4) = (m ((c : Thread nD τ).loc main_arg4)) := by
  show StableHlo.after hostOps1 (W2 m ρ c) _ = _
  after_results
  exact w2_arg4 m ρ c
theorem w3_arg5 : W3 m ρ c (Proc.devRef .tc main_arg5) = (m ((c : Thread nD τ).loc main_arg5)) := by
  show StableHlo.after hostOps1 (W2 m ρ c) _ = _
  after_results
  exact w2_arg5 m ρ c
theorem w3_arg6 : W3 m ρ c (Proc.devRef .tc main_arg6) = (m ((c : Thread nD τ).loc main_arg6)) := by
  show StableHlo.after hostOps1 (W2 m ρ c) _ = _
  after_results
  exact w2_arg6 m ρ c
theorem w3_arg7 : W3 m ρ c (Proc.devRef .tc main_arg7) = (m ((c : Thread nD τ).loc main_arg7)) := by
  show StableHlo.after hostOps1 (W2 m ρ c) _ = _
  after_results
  exact w2_arg7 m ρ c
theorem w3_arg8 : W3 m ρ c (Proc.devRef .tc main_arg8) = (m ((c : Thread nD τ).loc main_arg8)) := by
  show StableHlo.after hostOps1 (W2 m ρ c) _ = _
  after_results
  exact w2_arg8 m ρ c
theorem w3_v1 : W3 m ρ c (Proc.devRef .tc main_v1) = val_main_v1 (F := Ideal) (m ((c : Thread nD τ).loc main_arg1)) := by
  show StableHlo.after hostOps1 (W2 m ρ c) _ = _
  after_results
  exact w2_v1 m ρ c
theorem w3_v3 : W3 m ρ c (Proc.devRef .tc main_v3) = val_main_v3 (F := Ideal) (m ((c : Thread nD τ).loc main_arg1)) := by
  show StableHlo.after hostOps1 (W2 m ρ c) _ = _
  after_results
  exact w2_v3 m ρ c
theorem w3_v12 : W3 m ρ c (Proc.devRef .tc main_v12) = invCol (m ((c : Thread nD τ).loc main_arg1)) := by
  show StableHlo.after hostOps1 (W2 m ρ c) _ = _
  after_results
  exact w2_v12 m ρ c

/-! ### After the second launch: the first layer -/

theorem w4_v27 : W4 m ρ c (Proc.devRef .tc main_v27) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Cert.KernelIdeal.RegionValue.final1 (V3 m ρ) c).trans ?_)
  show Cert.Sage.layer1 (W3 m ρ c (Proc.devRef .tc main_v25)) (W3 m ρ c (Proc.devRef .tc main_arg0)) (W3 m ρ c (Proc.devRef .tc main_v12))
    (W3 m ρ c (Proc.devRef .tc main_v26)) (W3 m ρ c (Proc.devRef .tc main_arg4)) = _
  rw [w3_v25 m ρ c, w3_arg0 m ρ c, w3_v12 m ρ c, w3_v26 m ρ c, w3_arg4 m ρ c]
  rfl
theorem w4_v12 : W4 m ρ c (Proc.devRef .tc main_v12) = invCol (m ((c : Thread nD τ).loc main_arg1)) :=
  ((W4_arr m ρ c 2).trans (((dat1 (V3 m ρ) c).arrAt_in 2 rfl _).trans (A_eq1 (V3 m ρ) c 2))).trans (w3_v12 m ρ c)
theorem w4_v1 : W4 m ρ c (Proc.devRef .tc main_v1) = val_main_v1 (F := Ideal) (m ((c : Thread nD τ).loc main_arg1)) :=
  (W4_of_ne m ρ c main_v1 (by decide)).trans (w3_v1 m ρ c)
theorem w4_v3 : W4 m ρ c (Proc.devRef .tc main_v3) = val_main_v3 (F := Ideal) (m ((c : Thread nD τ).loc main_arg1)) :=
  (W4_of_ne m ρ c main_v3 (by decide)).trans (w3_v3 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)

/-! ### After the third stretch: the first layer's rows aggregated over the edges, the second bias as a row -/

/-- Neighbour aggregation as a function of the destination rows, the table and the source rows. -/
def aggOf (v3 : (⟨S1600000, .i32⟩ : BufTy).Contents (Elt Ideal)) (T : (⟨S100000x32, .f32⟩ : BufTy).Contents (Elt Ideal))
    (v1 : (⟨S1600000, .i32⟩ : BufTy).Contents (Elt Ideal)) : (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ FTy.f32 0#32))
    (broadcastInDim S1600000x1 ![0] bcast_S1600000_S1600000x1_0 v3)
    (Host.gather gather_S100000x32_S1600000x1_S1600000x32_1_0_n_n_0_1_132 T
      (broadcastInDim S1600000x1 ![0] bcast_S1600000_S1600000x1_0
        (select (cmpi CmpIPredicate.slt v1 (broadcastInDim S1600000 ![] bcast_S_S1600000 (constantI S_ 32 0#32)))
          (addi v1 (broadcastInDim S1600000 ![] bcast_S_S1600000 (constantI S_ 32 100000#32))) v1)))

theorem agg_eq_aggOf (x1 : (⟨S2x1600000, .i32⟩ : BufTy).Contents (Elt Ideal)) (T : (⟨S100000x32, .f32⟩ : BufTy).Contents (Elt Ideal)) :
    agg x1 T = aggOf (val_main_v3 (F := Ideal) x1) T (val_main_v1 (F := Ideal) x1) := rfl

/-- A function of three arguments takes equal arguments to equal values. -/
theorem congr3 {α β γ δ : Sort _} (f : α → β → γ → δ) {a a' : α} {b b' : β} {c c' : γ} (ha : a = a') (hb : b = b') (hc : c = c') :
    f a b c = f a' b' c' := by subst ha hb hc; rfl

theorem w5_v37 : W5 m ρ c (Proc.devRef .tc main_v37) = agg (m ((c : Thread nD τ).loc main_arg1)) (h1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) _ = _
  after_results
  exact (congr3 aggOf (w4_v3 m ρ c) (w4_v27 m ρ c) (w4_v1 m ρ c)).trans (agg_eq_aggOf _ _).symm
theorem w5_v38 : W5 m ρ c (Proc.devRef .tc main_v38) = biasRow (m ((c : Thread nD τ).loc main_arg6)) := by
  show StableHlo.after hostOps2 (W4 m ρ c) _ = _
  after_results
  rw [w4_arg6 m ρ c]
  rfl
theorem w5_v27 : W5 m ρ c (Proc.devRef .tc main_v27) = h1 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) _ = _
  after_results
  exact w4_v27 m ρ c
theorem w5_v12 : W5 m ρ c (Proc.devRef .tc main_v12) = invCol (m ((c : Thread nD τ).loc main_arg1)) := by
  show StableHlo.after hostOps2 (W4 m ρ c) _ = _
  after_results
  exact w4_v12 m ρ c
theorem w5_arg5 : W5 m ρ c (Proc.devRef .tc main_arg5) = (m ((c : Thread nD τ).loc main_arg5)) := by
  show StableHlo.after hostOps2 (W4 m ρ c) _ = _
  after_results
  exact w4_arg5 m ρ c
theorem w5_arg7 : W5 m ρ c (Proc.devRef .tc main_arg7) = (m ((c : Thread nD τ).loc main_arg7)) := by
  show StableHlo.after hostOps2 (W4 m ρ c) _ = _
  after_results
  exact w4_arg7 m ρ c
theorem w5_arg8 : W5 m ρ c (Proc.devRef .tc main_arg8) = (m ((c : Thread nD τ).loc main_arg8)) := by
  show StableHlo.after hostOps2 (W4 m ρ c) _ = _
  after_results
  exact w4_arg8 m ρ c

/-! ### After the third launch: the result -/

/-- The fold's contents at the result buffer are the kernel's term of the argument arrays. -/
theorem w6_v39 : W6 m ρ c (Proc.devRef .tc main_v39) =
    out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 7).trans ((Cert.KernelIdeal.RegionValue.final2 (V5 m ρ) c).trans ?_)
  show Cert.Sage.layer2 (W5 m ρ c (Proc.devRef .tc main_v37)) (W5 m ρ c (Proc.devRef .tc main_v27)) (W5 m ρ c (Proc.devRef .tc main_v12))
    (W5 m ρ c (Proc.devRef .tc main_arg5)) (W5 m ρ c (Proc.devRef .tc main_v38)) (W5 m ρ c (Proc.devRef .tc main_arg7))
    (W5 m ρ c (Proc.devRef .tc main_arg8)) = _
  rw [w5_v37 m ρ c, w5_v27 m ρ c, w5_v12 m ρ c, w5_arg5 m ρ c, w5_v38 m ρ c, w5_arg7 m ρ c, w5_arg8 m ρ c]
  rfl

end Fold

end Cert.KernelIdeal.KVal

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.Finite.lean ====
/-
  From the precondition to real entries. The precondition is the conjunction, one conjunct per floating-point input, of
  "every entry has absolute value below plus infinity". An extended real whose absolute value `max x (-x)` is below plus
  infinity is neither infinity, so it is a real number; a conjunction of bits that is 1 has every conjunct 1; and an
  all-axes reduction by `and` that is 1 met a 1 at every index.
-/
import proofs.«156842_j45423574122804_2_alg».proof.Pre_finite_inputs
import proofs.«156842_j45423574122804_2_alg».proof.Proof.LibRealSums
import Idealize.ShloMosaic.Lib.ReduceAll
import Idealize.ShloMosaic.Lib.ValueIdx

namespace Cert.Finite

open Idealize.ShloMosaic Cert.LibRealSums Cert.Pre_finite_inputs

/-- The rank-0 shape has one index. -/
instance : Subsingleton S_.Idx := ⟨fun a b => funext fun d => d.elim0⟩

/-- The single-precision pattern `0x7F800000` denotes plus infinity. -/
theorem ofBits_inf : Ideal.ofBits .f32 0x7F800000#32 = ⊤ := by simp [Ideal.ofBits, Ideal.ieee]

/-- An extended real whose absolute value `max x (-x)` is below plus infinity is a real number: it is not plus infinity
    (then `x` itself would reach it) and not minus infinity (then `-x` would). -/
theorem isReal_of_abs_lt_top (x : EReal) (h : max x (-x) < ⊤) : IsReal x := by
  induction x using EReal.rec with
  | bot => exact absurd h (by simp)
  | coe r => exact isReal_coe r
  | top => exact absurd h (by simp)

/-- The comparison bit "the absolute value is below the pattern of plus infinity" being 1 makes the entry a real number. -/
theorem isReal_of_cmp (x : EReal)
    (h : Ideal.cmp .olt (max x (-x)) (Ideal.ofBits .f32 0x7F800000#32) = 1#1) : IsReal x := by
  rw [ofBits_inf] at h
  refine isReal_of_abs_lt_top x ?_
  by_contra hn
  simp [Ideal.cmp, hn] at h

/-- One conjunct of the precondition, read at an index: where the array of comparison bits is 1, the entry is a real
    number. The broadcast constant reads the pattern of plus infinity at every index. -/
theorem isReal_of_bit {s : Shape} (x : FVec Ideal s .f32) (hb : S_.BroadcastsInDim s (![] : Fin 0 → Fin s.rank)) (i : s.Idx)
    (h : cmpf .olt (Host.absf (F := Ideal) x) (broadcastInDim s ![] hb (constant (F := Ideal) S_ .f32 0x7F800000#32)) i = 1#1) :
    IsReal (x i) :=
  isReal_of_cmp (x i) h

/-- One conjunct of the precondition: an all-axes reduction by `and` of the comparison bits that is 1 makes every entry
    a real number. -/
theorem isReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi
      (cmpf .olt (Host.absf (F := Ideal) x) (broadcastInDim s ![] hb (constant (F := Ideal) S_ .f32 0x7F800000#32)))
      (constantI S_ 1 1#1) hr hu j = 1#1) (i : s.Idx) : IsReal (x i) :=
  isReal_of_bit x hb i (Host.reduce_andi_all _ _ hr hu j h i)

/-- A conjunction of two rank-0 bit arrays that is 1 at the index has both conjuncts 1 there. -/
theorem andi_split (a b : IVec S_ 1) (j : S_.Idx) (h : andi a b j = 1#1) : a j = 1#1 ∧ b j = 1#1 :=
  IntOp.andi_eq_one.1 h

/-- Under the precondition every entry of every floating-point input is a real number. -/
theorem reals_of_pre [Cert.Pre_finite_inputs.Facts]
    (x0 : FVec Ideal S100000x64 .f32) (x1 : IVec S2x1600000 32) (x2 : FVec Ideal S64x32 .f32) (x3 : FVec Ideal S32 .f32)
    (x4 : FVec Ideal S64x32 .f32) (x5 : FVec Ideal S32x32 .f32) (x6 : FVec Ideal S32 .f32) (x7 : FVec Ideal S32x32 .f32)
    (x8 : FVec Ideal S32x40 .f32)
    (h : Cert.Pre_finite_inputs.fn (F := Ideal) x0 x1 x2 x3 x4 x5 x6 x7 x8 = fun _ => 1#1) :
    (∀ i, IsReal (x0 i)) ∧ (∀ i, IsReal (x2 i)) ∧ (∀ i, IsReal (x3 i)) ∧ (∀ i, IsReal (x4 i)) ∧ (∀ i, IsReal (x5 i)) ∧
      (∀ i, IsReal (x6 i)) ∧ (∀ i, IsReal (x7 i)) ∧ (∀ i, IsReal (x8 i)) := by
  have h0 := congrFun h ValueIdx.ix0
  dsimp only [Cert.Pre_finite_inputs.fn, Cert.Pre_finite_inputs.fn_part1, Cert.Pre_finite_inputs.fn_part2] at h0
  obtain ⟨h33, h37⟩ := andi_split _ _ _ h0
  obtain ⟨h28, h32⟩ := andi_split _ _ _ h33
  obtain ⟨h23, h27⟩ := andi_split _ _ _ h28
  obtain ⟨h18, h22⟩ := andi_split _ _ _ h23
  obtain ⟨h13, h17⟩ := andi_split _ _ _ h18
  obtain ⟨h8, h12⟩ := andi_split _ _ _ h13
  obtain ⟨h3, h7⟩ := andi_split _ _ _ h8
  exact ⟨isReal_of_all x0 _ _ _ _ h3, isReal_of_all x2 _ _ _ _ h7, isReal_of_all x3 _ _ _ _ h12,
    isReal_of_all x4 _ _ _ _ h17, isReal_of_all x5 _ _ _ _ h22, isReal_of_all x6 _ _ _ _ h27,
    isReal_of_all x7 _ _ _ _ h32, isReal_of_all x8 _ _ _ _ h37⟩

end Cert.Finite
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.SpecApply.lean ====
/-
  The dense passes of Spec.lean read at an entry `(r, q)`: each is a finite expression in the entries of its operands' row `r`
  and of the small matrices.
-/
import proofs.«156842_j45423574122804_2_alg».proof.Proof.Spec

noncomputable section

namespace Cert.Sage

open Idealize.ShloMosaic Idealize.ShloMosaic.ValueIdx

/-- The matrix product at `(r, q)`. -/
theorem mm_apply {n k m : Nat} (A : Arr n k) (W : Arr k m) (r : Fin n) (q : Fin m) :
    mm A W (ix2 r q) = ∑ p : Fin k, A (ix2 r p) * W (ix2 p q) := rfl

/-- The first layer at `(r, q)`. -/
theorem layer1_apply {n : Nat} (agg : Arr n 32) (x : Arr n 64) (inv : Arr n 1) (b : Arr 1 32) (Wr : Arr 64 32) (r : Fin n)
    (q : Fin 32) :
    layer1 agg x inv b Wr (ix2 r q)
      = max ((agg (ix2 r q) * inv (ix2 r (0 : Fin 1)) + ∑ p : Fin 64, x (ix2 r p) * Wr (ix2 p q)) + b (ix2 (0 : Fin 1) q)) 0 := rfl

/-- The second layer's hidden features at `(r, q)`. -/
theorem hidden2_apply {n : Nat} (agg h : Arr n 32) (inv : Arr n 1) (Wl : Arr 32 32) (b : Arr 1 32) (Wr : Arr 32 32) (r : Fin n)
    (q : Fin 32) :
    hidden2 agg h inv Wl b Wr (ix2 r q)
      = max ((∑ p : Fin 32, (agg (ix2 r p) * inv (ix2 r (0 : Fin 1))) * Wl (ix2 p q) + ∑ p : Fin 32, h (ix2 r p) * Wr (ix2 p q))
          + b (ix2 (0 : Fin 1) q)) 0 := rfl

/-- The second layer with its read-out at `(r, q)`. -/
theorem layer2_apply {n : Nat} (agg h : Arr n 32) (inv : Arr n 1) (Wl : Arr 32 32) (b : Arr 1 32) (Wr : Arr 32 32) (w : Arr 32 40)
    (r : Fin n) (q : Fin 40) :
    layer2 agg h inv Wl b Wr w (ix2 r q) = ∑ p : Fin 32, hidden2 agg h inv Wl b Wr (ix2 r p) * w (ix2 p q) := rfl

end Cert.Sage

end
-- ==== Proof.Layouts.lean ====
/-
  Small facts shared by the two layers' comparisons: the column of reciprocal in-degrees and a bias row read at an entry, the
  kernel's neighbour aggregation of the reference's first-layer array, and indices named by their coordinates.
-/
import proofs.«156842_j45423574122804_2_alg».proof.Proof.KernelTerm
import proofs.«156842_j45423574122804_2_alg».proof.Proof.SpecApply
import proofs.«156842_j45423574122804_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx
open Cert.ReferenceIdeal.Read
open Cert.KernelIdeal.KVal

/-! ## The layouts read at an entry -/

/-- The column of reciprocal in-degrees at row `r` is the reciprocal in-degree of node `r`. -/
theorem invCol_apply (x1 : (⟨Cert.ReferenceIdeal.S2x1600000, .i32⟩ : BufTy).Contents (Elt Ideal)) (r : Fin 100000) :
    invCol x1 (ix2 r (0 : Fin 1)) = val_main_v11 (F := Ideal) x1 (ix1 r) := by
  unfold invCol
  exact shapeCast_apply _ _ (ix2 r (0 : Fin 1)) (ix1 r)
    (by rewrite [Shape.rowMajor_val_two, Shape.rowMajor_val_one]; show r.val = r.val * 1 + 0; omega)

/-- A bias row at column `q` is the bias vector's entry `q`. -/
theorem biasRow_apply (b : (⟨Cert.ReferenceIdeal.S32, .f32⟩ : BufTy).Contents (Elt Ideal)) (q : Fin 32) :
    biasRow b (ix2 (0 : Fin 1) q) = b (ix1 q) := by
  unfold biasRow
  exact shapeCast_apply _ _ (ix2 (0 : Fin 1) q) (ix1 q)
    (by rewrite [Shape.rowMajor_val_two, Shape.rowMajor_val_one]; show q.val = 0 * 32 + q.val; omega)

/-! ## The aggregation of the first layer is the reference's -/

/-- The kernel's neighbour aggregation of the reference's first-layer array is the reference's second aggregate: the same
    gather and the same scatter-add over the same row numbers. -/
theorem agg_first_layer (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x32, .f32⟩ : BufTy).Contents (Elt Ideal)) (x3 : (⟨Cert.ReferenceIdeal.S32, .f32⟩ : BufTy).Contents (Elt Ideal)) (x4 : (⟨Cert.ReferenceIdeal.S64x32, .f32⟩ : BufTy).Contents (Elt Ideal)) :
    agg x1 (val_main_v31 (F := Ideal) x0 x1 x2 x3 x4) = val_main_v41 (F := Ideal) x0 x1 x2 x3 x4 := rfl

/-! ## Indices from coordinates -/

/-- A rank-2 index with the coordinates `a`, `b` is `ix2 a b`. -/
theorem idx2_eq {n0 n1 : Nat} (f : (⟨2, ![n0, n1]⟩ : Shape).Idx) (a : Fin n0) (b : Fin n1) (h0 : (f 0).val = a.val)
    (h1 : (f 1).val = b.val) : f = ix2 a b :=
  funext fun d => match d with | ⟨0, _⟩ => Fin.ext h0 | ⟨1, _⟩ => Fin.ext h1

/-- A rank-1 index with the coordinate `a` is `ix1 a`. -/
theorem idx1_eq {n : Nat} (f : (⟨1, ![n]⟩ : Shape).Idx) (a : Fin n) (h0 : (f 0).val = a.val) : f = ix1 a :=
  funext fun d => match d with | ⟨0, _⟩ => Fin.ext h0

end Cert.Bridge

end
-- ==== Proof.FirstLayer.lean ====
/-
  The first layer: the two programs' first-layer arrays are equal when the node features and the neighbour-side weight matrix
  are real numbers.

  The kernel multiplies the node features by the neighbour-side matrix first and aggregates the 32-wide rows of the product over
  the edges; the reference aggregates the 64-wide feature rows, scales by the reciprocal in-degree and multiplies afterwards.
  With `S` the set of edges arriving at node `r` and `s e` the source of edge `e`, the kernel's aggregate at `(r, j)` is
  `∑ e ∈ S, ∑ k, x (s e, k) * W (k, j)` and the reference's transformed scaled aggregate is
  `∑ k, ((∑ e ∈ S, x (s e, k)) * inv r) * W (k, j)`: equal by distributivity and exchange of the two finite sums, which hold
  on extended reals that are real numbers. The remaining two summands (the node's own transformed features and the bias) are
  added in two different orders.
-/
import proofs.«156842_j45423574122804_2_alg».proof.Proof.KernelTerm
import proofs.«156842_j45423574122804_2_alg».proof.Proof.Gen.ReferenceIdeal.Read
import proofs.«156842_j45423574122804_2_alg».proof.Proof.LibAggRows
import proofs.«156842_j45423574122804_2_alg».proof.Proof.LibRealSums
import proofs.«156842_j45423574122804_2_alg».proof.Proof.Layouts
import proofs.«156842_j45423574122804_2_alg».proof.Proof.SpecApply
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx
open Cert.ReferenceIdeal.Read
open Cert.KernelIdeal.KVal
open Cert.LibAggRows Cert.LibRealSums

/-! ## The printed dimension records are the row gather's and the row scatter's -/

theorem wfScatter32 : ScatterDims.WF ⟨2, ![100000, 32]⟩ ⟨2, ![1600000, 1]⟩ ⟨2, ![1600000, 32]⟩ [1] [0] [0] 1 := by decide
theorem wfScatter64 : ScatterDims.WF ⟨2, ![100000, 64]⟩ ⟨2, ![1600000, 1]⟩ ⟨2, ![1600000, 64]⟩ [1] [0] [0] 1 := by decide
theorem wfGather32 : GatherDims.WF ⟨2, ![100000, 32]⟩ ⟨2, ![1600000, 1]⟩ ⟨2, ![1600000, 32]⟩ [1] [0] [] [0] [] 1 ![1, 32] := by decide
theorem wfGather64 : GatherDims.WF ⟨2, ![100000, 64]⟩ ⟨2, ![1600000, 1]⟩ ⟨2, ![1600000, 64]⟩ [1] [0] [] [0] [] 1 ![1, 64] := by decide
theorem kScatter32 : Cert.KernelIdeal.scatter_S100000x32_S1600000x1_S1600000x32_1_0_0_1 = rowScatterDims 100000 1600000 32 wfScatter32 := rfl
theorem kGather32 : Cert.KernelIdeal.gather_S100000x32_S1600000x1_S1600000x32_1_0_n_n_0_1_132 = rowGatherDims 100000 1600000 32 wfGather32 := rfl
theorem rScatter64 : Cert.ReferenceIdeal.scatter_S100000x64_S1600000x1_S1600000x64_1_0_0_1 = rowScatterDims 100000 1600000 64 wfScatter64 := rfl
theorem rGather64 : Cert.ReferenceIdeal.gather_S100000x64_S1600000x1_S1600000x64_1_0_n_n_0_1_164 = rowGatherDims 100000 1600000 64 wfGather64 := rfl

/-! ## The edges arriving at a node, and an edge's source -/

/-- The edges whose destination row is `r`. -/
def arriving (x1 : (⟨Cert.ReferenceIdeal.S2x1600000, .i32⟩ : BufTy).Contents (Elt Ideal)) (r : Fin 100000) : Finset (Fin 1600000) :=
  Finset.univ.filter (fun e : Fin 1600000 => dstRow? 100000 (val_main_v20 (F := Ideal) x1) e = some r)

/-- The source row of edge `e` (wrapped round when negative, then clamped into the table). -/
def source (x1 : (⟨Cert.ReferenceIdeal.S2x1600000, .i32⟩ : BufTy).Contents (Elt Ideal)) (e : Fin 1600000) : Fin 100000 :=
  srcRow 100000 (by decide) (val_main_v17 (F := Ideal) x1) e

theorem dstIdx_eq (x1 : (⟨Cert.ReferenceIdeal.S2x1600000, .i32⟩ : BufTy).Contents (Elt Ideal)) : dstIdx x1 = val_main_v20 (F := Ideal) x1 := rfl
theorem srcIdx_eq (x1 : (⟨Cert.ReferenceIdeal.S2x1600000, .i32⟩ : BufTy).Contents (Elt Ideal)) : srcIdx x1 = val_main_v17 (F := Ideal) x1 := rfl

/-! ## The two aggregates read at an entry -/

/-- The kernel's aggregate of a 32-column table at `(r, j)`: zero plus the sum over the edges arriving at `r` of the table's
    entry in the source's row, column `j`. -/
theorem aggNarrow_apply (x1 : (⟨Cert.ReferenceIdeal.S2x1600000, .i32⟩ : BufTy).Contents (Elt Ideal)) (T : (⟨Cert.ReferenceIdeal.S100000x32, .f32⟩ : BufTy).Contents (Elt Ideal))
    (r : Fin 100000) (j : Fin 32) :
    aggNarrow x1 T (ix2 r j) = 0 + ∑ e ∈ arriving x1 r, T (ix2 (source x1 e) j) := by
  unfold aggNarrow
  rw [kScatter32, rowScatterAdd_apply, dstIdx_eq, srcIdx_eq]
  refine congrArg₂ (· + ·) ?_ (Finset.sum_congr rfl fun e _ => ?_)
  · rw [broadcastInDim_apply _ _ _ (ix2 r j) (fun a => a.elim0) (fun a => a.elim0), constant_apply, Ideal.ofBits_zero_f32]
  · rw [extf_apply, kGather32, rowGather_apply (by decide), truncf_apply]
    rfl

/-- The reference's aggregate of the node features at `(r, k)`. -/
theorem v21_apply (x0 : (⟨Cert.ReferenceIdeal.S100000x64, .f32⟩ : BufTy).Contents (Elt Ideal)) (x1 : (⟨Cert.ReferenceIdeal.S2x1600000, .i32⟩ : BufTy).Contents (Elt Ideal)) (r : Fin 100000) (k : Fin 64) :
    val_main_v21 (F := Ideal) x0 x1 (ix2 r k) = 0 + ∑ e ∈ arriving x1 r, x0 (ix2 (source x1 e) k) := by
  unfold val_main_v21 val_main_v18
  rw [rScatter64, rowScatterAdd_apply]
  refine congrArg₂ (· + ·) ?_ (Finset.sum_congr rfl fun e _ => ?_)
  · rw [val_main_v19_apply, val_main_cst_4_apply, Ideal.ofBits_def, Ideal.ofBits_zero_f32]
  · rw [rGather64, rowGather_apply (by decide)]
    rfl

/-! ## The reciprocal in-degree is a real number -/

/-- A scatter-add of real updates into a real operand has real entries: each is an operand entry plus a finite sum of
    update entries. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd (F := Ideal) d x idx upd i) :=
  isReal_add (hx i) (isReal_sum _ _ fun j _ => hu j)

/-- Every node's clamped reciprocal in-degree is a real number: the in-degree is zero plus a finite sum of ones. -/
theorem isReal_inv (x1 : (⟨Cert.ReferenceIdeal.S2x1600000, .i32⟩ : BufTy).Contents (Elt Ideal)) (r : Fin 100000) : IsReal (val_main_v11 (F := Ideal) x1 (ix1 r)) := by
  rw [val_main_v11_apply, val_main_v10_apply, val_main_cst_2_apply, val_main_v9_apply, val_main_v8_apply, val_main_cst_1_apply]
  rw [Ideal.hostDivf_def, Ideal.maximumf_def, Ideal.ofBits_def, ofBits_one]
  refine isReal_invDeg _ ?_
  have h5 : ∀ i, IsReal (val_main_v5 (F := Ideal) i) := fun i => by
    rw [val_main_v5_apply, val_main_cst_0_apply, Ideal.ofBits_def]; exact isReal_ofBits_zero
  have h4 : ∀ j, IsReal (val_main_v4 (F := Ideal) j) := fun j => by
    rw [val_main_v4_apply, val_main_cst_apply, Ideal.ofBits_def]; exact isReal_ofBits_one
  exact isReal_scatterAdd Cert.ReferenceIdeal.scatter_S100000_S1600000x1_S1600000_n_0_0_1 (val_main_v5 (F := Ideal))
    (val_main_v6 (F := Ideal) x1) (val_main_v4 (F := Ideal)) h5 h4 (ix1 r)

/-! ## The first layer -/

/-- The two programs' first-layer arrays are equal when the node features and the neighbour-side weight matrix are real. -/
theorem h1_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x32, .f32⟩ : BufTy).Contents (Elt Ideal)) (x3 : (⟨Cert.ReferenceIdeal.S32, .f32⟩ : BufTy).Contents (Elt Ideal)) (x4 : (⟨Cert.ReferenceIdeal.S64x32, .f32⟩ : BufTy).Contents (Elt Ideal)) (hx0 : ∀ i, IsReal (x0 i)) (hx2 : ∀ i, IsReal (x2 i)) :
    h1 x0 x1 x2 x3 x4 = val_main_v31 (F := Ideal) x0 x1 x2 x3 x4 := by
  funext i
  obtain ⟨r, j, rfl⟩ : ∃ (r : Fin 100000) (j : Fin 32), i = ix2 r j := ⟨i 0, i 1, eq_ix2 i⟩
  unfold h1
  refine (Cert.Sage.layer1_apply _ _ _ _ _ r j).trans ?_
  rw [aggNarrow_apply, invCol_apply, biasRow_apply]
  simp only [Cert.Sage.mm_apply]
  have hlaw : (0 + ∑ e ∈ arriving x1 r, ∑ k : Fin 64, x0 (ix2 (source x1 e) k) * x2 (ix2 k j)) * val_main_v11 (F := Ideal) x1 (ix1 r)
      = ∑ k : Fin 64, ((0 + ∑ e ∈ arriving x1 r, x0 (ix2 (source x1 e) k)) * val_main_v11 (F := Ideal) x1 (ix1 r)) * x2 (ix2 k j) :=
    agg_law (arriving x1 r) (fun e k => x0 (ix2 (source x1 e) k)) (fun k : Fin 64 => x2 (ix2 k j))
      (val_main_v11 (F := Ideal) x1 (ix1 r)) (fun e k => hx0 _) (fun k => hx2 _) (isReal_inv x1 r)
  rw [hlaw]
  rw [val_main_v31_apply, val_main_v30_apply, val_main_v28_apply, val_main_v25_apply, val_main_v29_apply, val_main_v27_apply,
    val_main_v26_apply, val_main_call0_v0_apply, val_main_call0_cst_apply]
  have e1 : ∀ k : Fin 64, lidx_main_v25 (ix2 r j) k = ix2 r k := fun k => idx2_eq _ _ _ rfl rfl
  have e2 : ∀ k : Fin 64, ridx_main_v25 (ix2 r j) k = ix2 k j := fun k => idx2_eq _ _ _ rfl rfl
  have e3 : ∀ k : Fin 64, lidx_main_v29 (ix2 r j) k = ix2 r k := fun k => idx2_eq _ _ _ rfl rfl
  have e4 : ∀ k : Fin 64, ridx_main_v29 (ix2 r j) k = ix2 k j := fun k => idx2_eq _ _ _ rfl rfl
  have e5 : idx_main_v26 (idx_main_v27 (ix2 r j)) = ix1 j := idx1_eq _ _ rfl
  have e6 : ∀ k : Fin 64, idx_main_v22 (idx_main_v23 (ix2 r k)) = ix1 r := fun k => idx1_eq _ _ rfl
  simp only [e1, e2, e3, e4, e5]
  have hv24 : ∀ p : Fin 64, val_main_v24 (F := Ideal) x0 x1 (ix2 r p)
      = (0 + ∑ e ∈ arriving x1 r, x0 (ix2 (source x1 e) p)) * val_main_v11 (F := Ideal) x1 (ix1 r) := fun p => by
    rw [val_main_v24_apply, val_main_v23_apply, val_main_v22_apply, e6, v21_apply, Ideal.mulf_def]
  simp only [hv24]
  rw [Ideal.maximumf_def, Ideal.addf_def, Ideal.addf_def, Ideal.ofBits_def, Ideal.ofBits_zero_f32, add_right_comm]

end Cert.Bridge

end
-- ==== Proof.SecondLayer.lean ====
/-
  The second layer and the read-out: given that the two programs' first-layer arrays are equal, their results are equal.
  Both aggregate the first layer's rows over the same edges, scale by the same reciprocal in-degrees, and apply the same three
  matrices; they differ only in the order in which the bias and the node's own transformed features are added, and addition of
  extended reals is commutative and associative.
-/
import proofs.«156842_j45423574122804_2_alg».proof.Proof.KernelTerm
import proofs.«156842_j45423574122804_2_alg».proof.Proof.SpecApply
import proofs.«156842_j45423574122804_2_alg».proof.Proof.Layouts
import proofs.«156842_j45423574122804_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx
open Cert.ReferenceIdeal.Read
open Cert.KernelIdeal.KVal

/-! ## The hidden features of the second layer -/

/-- At node `r` and hidden unit `k` both programs rectify the same three summands — the scaled aggregate through the
    neighbour-side matrix, the node's own features through the self-side matrix, the bias — added in two different orders. -/
theorem hidden_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x32, .f32⟩ : BufTy).Contents (Elt Ideal)) (x3 : (⟨Cert.ReferenceIdeal.S32, .f32⟩ : BufTy).Contents (Elt Ideal)) (x4 : (⟨Cert.ReferenceIdeal.S64x32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S32x32, .f32⟩ : BufTy).Contents (Elt Ideal)) (r : Fin 100000) (k : Fin 32) :
    Cert.Sage.hidden2 (val_main_v41 (F := Ideal) x0 x1 x2 x3 x4) (val_main_v31 (F := Ideal) x0 x1 x2 x3 x4) (invCol x1) x5 (biasRow x6) x7
        (ix2 r k)
      = val_main_v51 (F := Ideal) x0 x1 x2 x3 x4 x5 x6 x7 (ix2 r k) := by
  refine (Cert.Sage.hidden2_apply _ _ _ _ _ _ r k).trans ?_
  rw [invCol_apply, biasRow_apply]
  rw [val_main_v51_apply, val_main_v50_apply, val_main_v48_apply, val_main_v45_apply, val_main_v49_apply, val_main_v47_apply,
    val_main_v46_apply, val_main_call1_v0_apply, val_main_call1_cst_apply]
  have e1 : ∀ q : Fin 32, lidx_main_v45 (ix2 r k) q = ix2 r q := fun q => idx2_eq _ _ _ rfl rfl
  have e2 : ∀ q : Fin 32, ridx_main_v45 (ix2 r k) q = ix2 q k := fun q => idx2_eq _ _ _ rfl rfl
  have e3 : ∀ q : Fin 32, lidx_main_v49 (ix2 r k) q = ix2 r q := fun q => idx2_eq _ _ _ rfl rfl
  have e4 : ∀ q : Fin 32, ridx_main_v49 (ix2 r k) q = ix2 q k := fun q => idx2_eq _ _ _ rfl rfl
  have e5 : idx_main_v46 (idx_main_v47 (ix2 r k)) = ix1 k := idx1_eq _ _ rfl
  have e6 : ∀ q : Fin 32, idx_main_v42 (idx_main_v43 (ix2 r q)) = ix1 r := fun q => idx1_eq _ _ rfl
  simp only [e1, e2, e3, e4, e5]
  have hv44 : ∀ p : Fin 32, val_main_v44 (F := Ideal) x0 x1 x2 x3 x4 (ix2 r p)
      = val_main_v41 (F := Ideal) x0 x1 x2 x3 x4 (ix2 r p) * val_main_v11 (F := Ideal) x1 (ix1 r) := fun p => by
    rw [val_main_v44_apply, val_main_v43_apply, val_main_v42_apply, e6, Ideal.mulf_def]
  simp only [hv44]
  rw [Ideal.maximumf_def, Ideal.addf_def, Ideal.addf_def, Ideal.ofBits_def, Ideal.ofBits_zero_f32, add_right_comm]

/-! ## The result -/

/-- With equal first-layer arrays the kernel's result term is the reference's. -/
theorem out_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x32, .f32⟩ : BufTy).Contents (Elt Ideal)) (x3 : (⟨Cert.ReferenceIdeal.S32, .f32⟩ : BufTy).Contents (Elt Ideal)) (x4 : (⟨Cert.ReferenceIdeal.S64x32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S32x32, .f32⟩ : BufTy).Contents (Elt Ideal)) (x8 : (⟨Cert.ReferenceIdeal.S32x40, .f32⟩ : BufTy).Contents (Elt Ideal))
    (hh : h1 x0 x1 x2 x3 x4 = val_main_v31 (F := Ideal) x0 x1 x2 x3 x4) :
    out x0 x1 x2 x3 x4 x5 x6 x7 x8 = val_main_v52 (F := Ideal) x0 x1 x2 x3 x4 x5 x6 x7 x8 := by
  unfold out
  rw [hh, agg_first_layer]
  funext i
  obtain ⟨r, q, rfl⟩ : ∃ (r : Fin 100000) (q : Fin 40), i = ix2 r q := ⟨i 0, i 1, eq_ix2 i⟩
  refine (Cert.Sage.layer2_apply _ _ _ _ _ _ _ r q).trans ?_
  rw [val_main_v52_apply]
  have e1 : ∀ k : Fin 32, lidx_main_v52 (ix2 r q) k = ix2 r k := fun k => idx2_eq _ _ _ rfl rfl
  have e2 : ∀ k : Fin 32, ridx_main_v52 (ix2 r q) k = ix2 k q := fun k => idx2_eq _ _ _ rfl rfl
  simp only [e1, e2]
  exact Finset.sum_congr rfl fun k _ => by rw [hidden_eq]

end Cert.Bridge

end
-- ==== Proof.lean ====
/-
  The certificate of a two-layer GraphSAGE network with a linear read-out, as three TPU kernels among host gathers and
  scatter-adds, against its plain reference.

  The three frames are the generated ones (the reference's is its generated run with the result dropped). The idealization
  rewrote nothing, so `preserves` is trivial. For `algebraic`: the kernel's run leaves the result buffer at the fold of its host
  stretches and launches (RunValue.lean), which is one term `KVal.out` of the argument arrays (KernelValue.lean over the three
  launches' values of RegionValues.lean); the reference's generated run leaves its result at its own composed term. The two terms are
  equal (FirstLayer.lean, SecondLayer.lean): the first layers agree because multiplying by the neighbour-side weight matrix
  commutes with summing rows over the edges and with the per-node scaling, on real entries (Finite.lean reads the precondition);
  the second layers and the read-out agree up to the order of two additions.
-/
import proofs.«156842_j45423574122804_2_alg».proof.Defs
import proofs.«156842_j45423574122804_2_alg».proof.Proof.Gen.Kernel
import proofs.«156842_j45423574122804_2_alg».proof.Proof.Gen.Kernel.Skeleton
import proofs.«156842_j45423574122804_2_alg».proof.Proof.Gen.Kernel.Launch
import proofs.«156842_j45423574122804_2_alg».proof.Proof.Gen.Kernel.Points
import proofs.«156842_j45423574122804_2_alg».proof.Proof.Gen.Kernel.Frame
import proofs.«156842_j45423574122804_2_alg».proof.Proof.Gen.KernelIdeal
import proofs.«156842_j45423574122804_2_alg».proof.Proof.Gen.KernelIdeal.Skeleton
import proofs.«156842_j45423574122804_2_alg».proof.Proof.Gen.KernelIdeal.Launch
import proofs.«156842_j45423574122804_2_alg».proof.Proof.Gen.KernelIdeal.Points
import proofs.«156842_j45423574122804_2_alg».proof.Proof.Gen.KernelIdeal.Frame
import proofs.«156842_j45423574122804_2_alg».proof.Proof.Gen.ReferenceIdeal
import proofs.«156842_j45423574122804_2_alg».proof.Proof.Gen.Pre_finite_inputs
import proofs.«156842_j45423574122804_2_alg».proof.Proof.Gen.ReferenceIdeal.Run
import proofs.«156842_j45423574122804_2_alg».proof.Proof.Gen.ReferenceIdeal.Read
import proofs.«156842_j45423574122804_2_alg».proof.Proof.RunValue
import proofs.«156842_j45423574122804_2_alg».proof.Proof.KernelValue
import proofs.«156842_j45423574122804_2_alg».proof.Proof.Finite
import proofs.«156842_j45423574122804_2_alg».proof.Proof.FirstLayer
import proofs.«156842_j45423574122804_2_alg».proof.Proof.SecondLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel's term of the (agreeing) argument arrays in their result buffers. -/
theorem algebraic : Cert.algebraic_KernelIdeal_ReferenceIdeal := by
  intro m ρ m' ρ' hpre hagree
  refine ⟨fun c => Cert.KernelIdeal.KVal.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KVal.w6_v39 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq]
    obtain ⟨a0, a1, a2, a3, a4, a5, a6, a7, a8⟩ := hagree c
    rw [a0, a1, a2, a3, a4, a5, a6, a7, a8]
    obtain ⟨h0, h2, -⟩ := Cert.Finite.reals_of_pre _ _ _ _ _ _ _ _ _ (hpre c)
    exact (Cert.Bridge.out_eq _ _ _ _ _ _ _ _ _ (Cert.Bridge.h1_eq _ _ _ _ _ h0 h2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
